-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x512 : Shape := ⟨2, ![5000, 512]⟩
abbrev S5000x256 : Shape := ⟨2, ![5000, 256]⟩
abbrev S850000x256 : Shape := ⟨2, ![850000, 256]⟩
abbrev S50000x1 : Shape := ⟨2, ![50000, 1]⟩
abbrev S1x256 : Shape := ⟨2, ![1, 256]⟩
abbrev S5000x1 : Shape := ⟨2, ![5000, 1]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩

abbrev nBuf : Space → Nat
  | .hbm => 76
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S50000x256, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000x256, .f32⟩
  | .hbm, ⟨46, _⟩ => ⟨S850000x1, .f32⟩
  | .hbm, ⟨47, _⟩ => ⟨S850000x256, .f32⟩
  | .hbm, ⟨48, _⟩ => ⟨S850000x256, .f32⟩
  | .hbm, ⟨49, _⟩ => ⟨S_, .f32⟩
  | .hbm, ⟨50, _⟩ => ⟨S50000x256, .f32⟩
  | .hbm, ⟨51, _⟩ => ⟨S850000x1, .i32⟩
  | .hbm, ⟨52, _⟩ => ⟨S50000x256, .f32⟩
  | .hbm, ⟨53, _⟩ => ⟨S50000x1, .f32⟩
  | .hbm, ⟨54, _⟩ => ⟨S1x256, .f32⟩
  | .hbm, ⟨55, _⟩ => ⟨S50000x256, .f32⟩
  | .hbm, ⟨56, _⟩ => ⟨S50000x64, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x64, .f32⟩
  | .hbm, ⟨66, _⟩ => ⟨S850000x1, .f32⟩
  | .hbm, ⟨67, _⟩ => ⟨S850000x64, .f32⟩
  | .hbm, ⟨68, _⟩ => ⟨S850000x64, .f32⟩
  | .hbm, ⟨69, _⟩ => ⟨S_, .f32⟩
  | .hbm, ⟨70, _⟩ => ⟨S50000x64, .f32⟩
  | .hbm, ⟨71, _⟩ => ⟨S850000x1, .i32⟩
  | .hbm, ⟨72, _⟩ => ⟨S50000x64, .f32⟩
  | .hbm, ⟨73, _⟩ => ⟨S50000x1, .f32⟩
  | .hbm, ⟨74, _⟩ => ⟨S1x64, .f32⟩
  | .hbm, ⟨75, _⟩ => ⟨S50000x64, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x1, .f32⟩
  | .local _ .vmem, ⟨8, _⟩ => ⟨S5000x1, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call2_v0 : Ref sig .tc := ⟨.hbm, 53, rfl⟩
abbrev main_call2_v1 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call4_v0 : Ref sig .tc := ⟨.hbm, 73, rfl⟩
abbrev main_call4_v1 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x512_S5000x512_0_0 : ∀ a, (![0, 0] : Fin 2 → Nat) a + S5000x512.size a ≤ S5000x512.size a
  h_S5000x512 : 0 < S5000x512.numel
  inb_S512x256_S512x256_0_0 : ∀ a, (![0, 0] : Fin 2 → Nat) a + S512x256.size a ≤ S512x256.size a
  h_S512x256 : 0 < S512x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S50000_S50000x1 : S50000.ShapeCasts S50000x1
  shapeCasts_S256_S1x256 : S256.ShapeCasts S1x256
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call2_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call2_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call4_v0) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call4_v1) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S850000x1, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x64, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S_, .f32⟩
  | .hbm, ⟨118, _⟩ => ⟨S50000, .f32⟩
  | .hbm, ⟨119, _⟩ => ⟨S50000x1, .f32⟩
  | .hbm, ⟨120, _⟩ => ⟨S50000x1, .f32⟩
  | .hbm, ⟨121, _⟩ => ⟨S50000x64, .f32⟩
  | .hbm, ⟨122, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x512_S512x256_S50000x256_1_0_0_1_n_n_wf : DotDims.WF S50000x512 S512x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run, with the result array named.

  The program is four pipelined kernel regions among stretches of host operations. Its buffer contents at each
  boundary between segments are a fold from the launch memory: a host stretch rewrites the buffers its operations
  write, a region leaves each of its arrays at what its write-backs fold to and every other buffer as entered. The
  last boundary's contents are `Gen.W11`. Every weakly fair execution from a memory with zero counters terminates
  without a fault, and in every final state each buffer that lives for the whole program holds the last boundary's
  contents (`run_all`): the launch theorem for a list of segments, whose last thread state is read against the final
  state. In particular the result array holds `Gen.W11` at its reference and each argument array is as launched
  (`run_result`).
-/
import proofs.«156187_j27659589386355_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each buffer that
    lives for the whole program holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The run with the result array and the argument arrays named: the result holds the last boundary's contents at its
    reference, and each argument is as launched (no host operation and no region writes one). -/
theorem run_result : θ_run defs (onTc (τ := τ) (main (F := F))) ⟨m, fun _ => 0, ρ⟩ (fun r => ∀ c : Dev nD,
      r.2.mem ((c.tc : Thread nD τ).loc main_v51) = W11 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v51 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c)⟩) (run_all m ρ)

end Cert.KernelIdeal.GcnRun

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.GcnSpec.lean ====
/-
  The whole-array functions the two programs are compared through, index by index, on the extended reals.

  * `matProd`: the product of an M×K array by a K×N array; entry (r, j) is the sum over k of x(r, k)·w(k, j).
  * `scaleBiasRelu`: from an N×C array a, an N×1 column d and a 1×C row b, the array max(a(r, j)·d(r) + b(j), 0):
    every row of a scaled by its own factor, a bias row added, and the positive part taken.
  * `lsmRow`: the log-softmax of one row f at lane q: with m the larger of −∞ and the row's maximum, the shifted entry
    f(q) − m minus the logarithm of the sum over the lanes k of exp(f(k) − m).
  * `scaleBiasLsm`: every row of a scaled by its own factor, a bias row added, then the log-softmax of each row.
  An index of a rank-2 array is split into its row and its column, each a number below the literal extent.
-/
import Idealize.ShloMosaic.Lib.ValueIdx
import Idealize.ShloMosaic.PureOps.Ideal

noncomputable section

namespace Cert.Gcn

open Idealize.ShloMosaic Idealize.ShloMosaic.ValueIdx

/-- The row of a rank-2 index. -/
abbrev row {a b : Nat} (i : (⟨2, ![a, b]⟩ : Shape).Idx) : Fin a := ⟨(i 0).val, idx2_lt0 i⟩
/-- The column of a rank-2 index. -/
abbrev col {a b : Nat} (i : (⟨2, ![a, b]⟩ : Shape).Idx) : Fin b := ⟨(i 1).val, idx2_lt1 i⟩

theorem row_ix2 {a b : Nat} (p : Fin a) (q : Fin b) : row (ix2 p q) = p := rfl
theorem col_ix2 {a b : Nat} (p : Fin a) (q : Fin b) : col (ix2 p q) = q := rfl

/-- The product of an M×K array by a K×N array. -/
def matProd (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (row i) k) * w (ix2 k (col i))

/-- Every row scaled by its own factor, a bias row added, the positive part taken: max(a(r, j)·d(r) + b(j), 0). -/
def scaleBiasRelu (N C : Nat) (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => max (a (ix2 (row i) (col i)) * d (ix2 (row i) (0 : Fin 1)) + b (ix2 (0 : Fin 1) (col i))) (Ideal.ofBits .f32 0x00000000#32)

/-- The log-softmax of the row `f` at lane `q`. -/
def lsmRow {C : Nat} (f : Fin C → EReal) (q : Fin C) : EReal :=
  (f q - max (Ideal.ofBits .f32 0xFF800000#32) (Finset.univ.sup f))
    - Ideal.log (∑ k : Fin C, Ideal.exp (f k - max (Ideal.ofBits .f32 0xFF800000#32) (Finset.univ.sup f)))

/-- Every row scaled by its own factor, a bias row added, then the log-softmax of each row. -/
def scaleBiasLsm (N C : Nat) (a : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => lsmRow (fun k : Fin C => a (ix2 (row i) k) * d (ix2 (row i) (0 : Fin 1)) + b (ix2 (0 : Fin 1) k)) (col i)

end Cert.Gcn

end
-- ==== Proof.KernelProducts.lean ====
/-
  The two matrix-product regions of the idealized kernel program, each as one whole-array function.

  Each region runs over a grid of ten points. Point t loads rows 5000·t … 5000·t + 4999 of the left array and the whole
  of the (small) right array, multiplies them into a zero accumulator, and writes the 5000-row block back to the same
  rows of the result. At the ideal values a block's entry (p, q) is the sum over k of left(5000·t + p, k)·right(k, q), which
  is entry (5000·t + p, q) of the product of the two whole arrays; the ten blocks tile the result, so after the region the
  result array IS the product (`arr0` for the first layer's 50000×512 by 512×256, `arr2` for the second layer's
  50000×256 by 256×64), stated for any contents `V` the region may be entered with.
-/
import proofs.«156187_j27659589386355_2_alg».proof.Proof.Gen.KernelIdeal.Frame
import proofs.«156187_j27659589386355_2_alg».proof.Proof.LibRowOps
import Idealize.ShloMosaic.Lib.Pipeline.Value
import Idealize.ShloMosaic.Lib.ValueIdx
import proofs.«156187_j27659589386355_2_alg».proof.Proof.GcnSpec
set_option maxRecDepth 16384

noncomputable section

namespace Cert.KernelIdeal.GcnProducts

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## Region 0: a row block of the product -/

/-- The body's payload at (p, q): the sum over k of the row block's (p, k) times the weight's (k, q). -/
theorem pay0_apply (x0 : Vec Ideal S5000x512 .f32) (x1 : Vec Ideal S512x256 .f32) (y : S5000x256.Idx) :
    k0_pay1 x0 x1 y = ∑ k : Fin 512, x0 (ix2 (row y : Fin 5000) k) * x1 (ix2 k (col y : Fin 256)) := by
  obtain ⟨p, q, rfl⟩ : ∃ (p : Fin 5000) (q : Fin 256), y = ix2 p q := ⟨y 0, y 1, eq_ix2 y⟩
  unfold k0_pay1
  exact Cert.LibRowOps.matmul_plain_apply _ rfl none _ x1 p q

/-- The printed index maps over the grid: the row block moves with the point, the weight stays. -/
theorem idx_facts0 : ∀ t : Fin cfg0.N, win0_0.index t (0 : Fin 2) = t.val
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the two arrays as the region finds them. -/
theorem flushed0 (c : Dev nD) (t : Fin cfg0.N) :
    (dat0 V c).flushed 2 t = ((cfg0.win 2).blk t).view.read (Elt Ideal) (matProd 50000 512 256 (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x256) hz]
  obtain ⟨e0, e1, e2, e3, e4, e5⟩ := idx_facts0 t
  funext j
  refine (pay0_apply (iblk0 V c 0 t) (iblk0 V c 1 t) j).trans ?_
  show _ = matProd 50000 512 256 (V c main_arg0) (V c main_arg2) (((cfg0.win 2).blk t).view.emb j)
  unfold matProd
  refine Finset.sum_congr rfl fun k _ => ?_
  have hj0 : (j 0).val < 5000 := (j 0).isLt
  have hj1 : (j 1).val < 256 := (j 1).isLt
  have hl : iblk0 V c 0 t (ix2 (row j : Fin 5000) k)
      = V c main_arg0 (ix2 (row (((cfg0.win 2).blk t).view.emb j) : Fin 50000) k) := by
    show V c main_arg0 (((cfg0.win 0).blk t).view.emb (ix2 (row j : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have hr : iblk0 V c 1 t (ix2 k (col j : Fin 256))
      = V c main_arg2 (ix2 k (col (((cfg0.win 2).blk t).view.emb j) : Fin 256)) := by
    show V c main_arg2 (((cfg0.win 1).blk t).view.emb (ix2 k (col j : Fin 256))) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [hl, hr]

/-- An index of the result array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v22).slice (win0_2.rect t)).set ↔ _
  rw [View.set_slice_whole, Rect.mem_set_unit]
  exact Iff.rfl

/-- Every index of the result array is in some point's block: row r is in the block of point r / 5000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by omega⟩, flush0_2 _, ?_⟩
  rw [mem_blk0]
  obtain ⟨e0, e1, e2, e3, e4, e5⟩ := idx_facts0 ⟨(i 0).val / 5000, by omega⟩
  intro a
  match a with
  | ⟨0, _⟩ => show win0_2.index _ (0 : Fin 2) * 5000 ≤ (i 0).val ∧ (i 0).val < win0_2.index _ (0 : Fin 2) * 5000 + 5000; rw [e5]; show (i 0).val / 5000 * 5000 ≤ _ ∧ _ < (i 0).val / 5000 * 5000 + 5000; omega
  | ⟨1, _⟩ => show win0_2.index _ (1 : Fin 2) * 256 ≤ (i 1).val ∧ (i 1).val < win0_2.index _ (1 : Fin 2) * 256 + 256; rw [e4]; omega

/-- Region 0's result array after the region: the product of its two argument arrays as the region finds them. -/
theorem arr0 (c : Dev nD) : (dat0 V c).arrAt 2 cfg0.N = matProd 50000 512 256 (V c main_arg0) (V c main_arg2) :=
  (dat0 V c).arrAt_eq_of_cover 2 (matProd 50000 512 256 (V c main_arg0) (V c main_arg2)) (fun t _ => flushed0 V c t) cover0

/-! ## Region 2: a row block of the product -/

/-- The body's payload at (p, q): the sum over k of the row block's (p, k) times the weight's (k, q). -/
theorem pay2_apply (x0 : Vec Ideal S5000x256 .f32) (x1 : Vec Ideal S256x64 .f32) (y : S5000x64.Idx) :
    k2_pay1 x0 x1 y = ∑ k : Fin 256, x0 (ix2 (row y : Fin 5000) k) * x1 (ix2 k (col y : Fin 64)) := by
  obtain ⟨p, q, rfl⟩ : ∃ (p : Fin 5000) (q : Fin 64), y = ix2 p q := ⟨y 0, y 1, eq_ix2 y⟩
  unfold k2_pay1
  rw [shapeCast_self]
  exact Cert.LibRowOps.matmul_plain_apply _ rfl none x0 x1 p q

/-- The printed index maps over the grid: the row block moves with the point, the weight stays. -/
theorem idx_facts2 : ∀ t : Fin cfg2.N, win2_0.index t (0 : Fin 2) = t.val
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point t writes back is block t of the product of the two arrays as the region finds them. -/
theorem flushed2 (c : Dev nD) (t : Fin cfg2.N) :
    (dat2 V c).flushed 2 t = ((cfg2.win 2).blk t).view.read (Elt Ideal) (matProd 50000 256 64 (V c main_v36) (V c main_arg4)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x64) hz]
  obtain ⟨e0, e1, e2, e3, e4, e5⟩ := idx_facts2 t
  funext j
  refine (pay2_apply (iblk2 V c 0 t) (iblk2 V c 1 t) j).trans ?_
  show _ = matProd 50000 256 64 (V c main_v36) (V c main_arg4) (((cfg2.win 2).blk t).view.emb j)
  unfold matProd
  refine Finset.sum_congr rfl fun k _ => ?_
  have hj0 : (j 0).val < 5000 := (j 0).isLt
  have hj1 : (j 1).val < 64 := (j 1).isLt
  have hl : iblk2 V c 0 t (ix2 (row j : Fin 5000) k)
      = V c main_v36 (ix2 (row (((cfg2.win 2).blk t).view.emb j) : Fin 50000) k) := by
    show V c main_v36 (((cfg2.win 0).blk t).view.emb (ix2 (row j : Fin 5000) k)) = _
    refine congrArg (V c main_v36) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have hr : iblk2 V c 1 t (ix2 k (col j : Fin 64))
      = V c main_arg4 (ix2 k (col (((cfg2.win 2).blk t).view.emb j) : Fin 64)) := by
    show V c main_arg4 (((cfg2.win 1).blk t).view.emb (ix2 k (col j : Fin 64))) = _
    refine congrArg (V c main_arg4) (funext fun a => Fin.ext ?_)
    match a with
    | ⟨0, _⟩ => show win2_1.index t (0 : Fin 2) * 256 + 1 * k.val = k.val; omega
    | ⟨1, _⟩ => show win2_1.index t (1 : Fin 2) * 64 + 1 * (j 1).val = win2_2.index t (1 : Fin 2) * 64 + 1 * (j 1).val; omega
  rw [hl, hr]

/-- An index of the result array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v37).slice (win2_2.rect t)).set ↔ _
  rw [View.set_slice_whole, Rect.mem_set_unit]
  exact Iff.rfl

/-- Every index of the result array is in some point's block: row r is in the block of point r / 5000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  refine ⟨⟨(i 0).val / 5000, by omega⟩, flush2_2 _, ?_⟩
  rw [mem_blk2]
  obtain ⟨e0, e1, e2, e3, e4, e5⟩ := idx_facts2 ⟨(i 0).val / 5000, by omega⟩
  intro a
  match a with
  | ⟨0, _⟩ => show win2_2.index _ (0 : Fin 2) * 5000 ≤ (i 0).val ∧ (i 0).val < win2_2.index _ (0 : Fin 2) * 5000 + 5000; rw [e5]; show (i 0).val / 5000 * 5000 ≤ _ ∧ _ < (i 0).val / 5000 * 5000 + 5000; omega
  | ⟨1, _⟩ => show win2_2.index _ (1 : Fin 2) * 64 ≤ (i 1).val ∧ (i 1).val < win2_2.index _ (1 : Fin 2) * 64 + 64; rw [e4]; omega

/-- Region 2's result array after the region: the product of its two argument arrays as the region finds them. -/
theorem arr2 (c : Dev nD) : (dat2 V c).arrAt 2 cfg2.N = matProd 50000 256 64 (V c main_v36) (V c main_arg4) :=
  (dat2 V c).arrAt_eq_of_cover 2 (matProd 50000 256 64 (V c main_v36) (V c main_arg4)) (fun t _ => flushed2 V c t) cover2

end Cert.KernelIdeal.GcnProducts
end
-- ==== Proof.LibRowReduce.lean ====
/-
  The maximum and the sum of a row, and a plain matrix product, read at an index: the kernel's spelling and the host
  program's spelling are the same function of the entries, at the ideal values (extended reals, exact operations).

  Setting. A log-softmax over the lanes of each row of an a × b array needs, per row p, the maximum and the sum of the
  entries x(p, 0), …, x(p, b − 1). A kernel takes them with a reduction of a rank-2 vector over its axis 1 into a
  rank-1 vector, starting from an accumulator that is the operation's neutral element (−∞ for the maximum, 0 for the
  sum); a host program with a reduce of a rank-2 tensor over its dimension 1 from a rank-0 initial value (again −∞ or
  0). On the extended reals −∞ is the least element ⊥, max is commutative and associative, and addition is exact, so:

  * THE ROW MAXIMUM. Both the kernel's and the host's maximum of row p are ⊔ₖ x(p, k), the supremum over k < b of the
    row's entries (`rowMax_apply`, `hostRowMax_apply`); for b = 0 it is ⊥. The step common to both: a fold of max from ⊥
    over a finite set is the supremum over it (`fold_max_bot_eq_sup`), and the 32-bit pattern FF800000 is the float −∞,
    whose ideal value is ⊥ (`ofBits_negInf_f32`).
  * THE ROW SUM. The host's sum of row p from the initial value 0 is ∑ₖ x(p, k) (`hostRowSum_apply`); the kernel's is
    read the same way in the module on rows and columns.
  * THE PLAIN PRODUCT. The host's product of an M × K by a K × N matrix with the plain dimension numbers (contract the
    left operand's axis 1 with the right operand's axis 0, no batching axis) is, at (r, j), ∑ₖ lhs(r, k) · rhs(k, j)
    (`dotGeneral_plain_apply`), whatever the operands' float formats and the precision attribute.

  In every statement the extents a, b (M, K, N) are arbitrary and the shape facts the operations ask for are arbitrary
  proofs taken as hypotheses. The reduced index p with the coordinate k put back on axis 1 is (p, k) (`lift_row`).
-/
import Idealize.ShloMosaic.Lib.ValueIdx
import Idealize.ShloMosaic.PureOps.Ideal.Laws
import proofs.«156187_j27659589386355_2_alg».proof.Proof.LibRowOps

noncomputable section

namespace Cert.LibRowReduce

open Idealize.ShloMosaic Idealize.ShloMosaic.ValueIdx

/-! ## The host's plain matrix product -/

/-- A plain `M×K` by `K×N` host product, at `(r, j)`: the sum over `k` of `lhs (r, k) * rhs (k, j)`. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    Host.dotGeneral d prec lhs rhs (ix2 r j) = ∑ k : Fin K, lhs (ix2 r k) * rhs (ix2 k j) := by
  subst hd
  show FloatOps.dotGeneral (DotDims.plain M K N) prec .single lhs rhs (ix2 r j) = _
  -- the sum over the contraction index, re-indexed by its one coordinate
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  -- the left operand is read at (r, k), the right one at (k, j)
  have el : (DotDims.plain M K N).lhsIdx (ix2 r j) ((contrEquiv1 (DotDims.plain M K N) K rfl rfl).symm k) = ix2 r k :=
    funext fun ax => Fin.ext (by
      match ax with
      | ⟨0, _⟩ => exact Cert.LibRowOps.plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact Cert.LibRowOps.plain_rhs1 M K N _ _)
  rw [el, er]

/-! ## A row's index with its lane put back -/

/-- The reduced index `p` of an `[a, b]` array reduced over axis 1, with the coordinate `k` put back, is `(p, k)`. -/
theorem lift_row {a b : ℕ} (h : (⟨2, ![a, b]⟩ : Shape).Reduces [1] ⟨1, ![a]⟩) (p : Fin a) (k : Fin b) :
    h.lift (ix1 p) k = ix2 p k := by
  funext ax
  refine Fin.ext ?_
  match ax with
  | ⟨0, _⟩ => rfl
  | ⟨1, _⟩ => rfl

/-! ## The host's row sum -/

/-- The host's sum over the lanes of row `p` of an `[a, b]` tensor, from the initial value zero, at the ideal values. -/
theorem hostRowSum_apply {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (⟨0, ![]⟩ : Shape) .f32 0x00000000#32) h' hu (ix1 p) = ∑ k : Fin b, x (ix2 p k) := by
  -- the result has rank one, so the same shape fact names the index with a lane put back
  have h : (⟨2, ![a, b]⟩ : Shape).Reduces [1] ⟨1, ![a]⟩ := ⟨h'.1, Nat.one_pos, h'.2⟩
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## The row maximum -/

/-- A fold of `max` from `⊥` over a finite set of extended reals is the supremum over the set. -/
theorem fold_max_bot_eq_sup {ι : Type*} (s : Finset ι) (f : ι → EReal) : s.fold max ⊥ f = s.sup f := rfl

/-- The 32-bit pattern `FF800000` is the float `-∞`: its ideal value is the least extended real. -/
theorem ofBits_negInf_f32 : Ideal.ofBits .f32 0xFF800000#32 = ⊥ := by simp [Ideal.ofBits, Ideal.ieee]

/-- THE KERNEL'S ROW MAXIMUM: the maximum over the lanes of row `p` of an `[a, b]` vector, from the accumulator `-∞`, is
    the supremum of the row's entries. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = Finset.univ.sup (fun k : Fin b => src (ix2 p k)) := by
  rw [Ideal.multiReduction_maximumf_single src _ h hφ hacc (ix1 p)]
  have hf : (src ∘ h.lift (ix1 p)) = fun k : Fin b => src (ix2 p k) :=
    funext fun k => congrArg src (lift_row h p k)
  show Finset.fold max (Ideal.ofBits .f32 0xFF800000#32) (src ∘ h.lift (ix1 p)) (Finset.univ : Finset (Fin b)) = _
  rw [hf, ofBits_negInf_f32]
  exact fold_max_bot_eq_sup _ _

/-- THE HOST'S ROW MAXIMUM: the host's maximum over the lanes of row `p` of an `[a, b]` tensor, from the initial value
    `-∞`, is the supremum of the row's entries. -/
theorem hostRowMax_apply {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduce FloatOps.maximumf x (constant (⟨0, ![]⟩ : Shape) .f32 0xFF800000#32) h' hu (ix1 p)
      = Finset.univ.sup (fun k : Fin b => x (ix2 p k)) := by
  have h : (⟨2, ![a, b]⟩ : Shape).Reduces [1] ⟨1, ![a]⟩ := ⟨h'.1, Nat.one_pos, h'.2⟩
  rw [Host.reduce_eq_fold_single FloatOps.maximumf x _ h' h hu]
  have hf : (x ∘ h.lift (ix1 p)) = fun k : Fin b => x (ix2 p k) :=
    funext fun k => congrArg x (lift_row h p k)
  show Finset.fold max (Ideal.ofBits .f32 0xFF800000#32) (x ∘ h.lift (ix1 p)) (Finset.univ : Finset (Fin b)) = _
  rw [hf, ofBits_negInf_f32]
  exact fold_max_bot_eq_sup _ _

end Cert.LibRowReduce

end
-- ==== Proof.KernelEpilogues.lean ====
/-
  The two epilogue regions of the idealized kernel program, each as one whole-array function.

  Each region runs over a grid of ten points. Point t loads rows 5000·t … 5000·t + 4999 of an aggregated array a and of a
  column d of per-row factors, and the whole of a bias row b, and writes back the same rows of the result. In the first
  layer's epilogue the block's entry (p, q) is max(a(r, q)·d(r) + b(q), 0) with r = 5000·t + p. In the second layer's it is the
  log-softmax over the lanes of row r of the array a(r, k)·d(r) + b(k): with m the larger of −∞ and the row's maximum, the
  entry minus m, minus the logarithm of the sum over the lanes of the exponentials of the entries minus m. The ten blocks
  tile the result, so after the region the result array is that function of the three whole arrays (`arr1`, `arr3`),
  stated for any contents `V` the region may be entered with.
-/
import proofs.«156187_j27659589386355_2_alg».proof.Proof.Gen.KernelIdeal.Frame
import proofs.«156187_j27659589386355_2_alg».proof.Proof.LibRowOps
import Idealize.ShloMosaic.Lib.Pipeline.Value
import Idealize.ShloMosaic.Lib.ValueIdx
import Idealize.ShloMosaic.Lib.ValueLayout
import proofs.«156187_j27659589386355_2_alg».proof.Proof.LibRowReduce
import proofs.«156187_j27659589386355_2_alg».proof.Proof.GcnSpec
set_option maxRecDepth 16384

noncomputable section

namespace Cert.KernelIdeal.GcnEpilogues

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## Region 1: scale each row, add the bias row, take the positive part -/

/-- The body's payload at (p, q): max(a(p, q)·d(p) + b(q), 0). -/
theorem pay1_apply (x0 : Vec Ideal S5000x256 .f32) (x1 : Vec Ideal S5000x1 .f32) (x2 : Vec Ideal S1x256 .f32) (y : S5000x256.Idx) :
    k1_pay1 x0 x1 x2 y = max (x0 (ix2 (row y : Fin 5000) (col y : Fin 256)) * x1 (ix2 (row y : Fin 5000) (0 : Fin 1)) + x2 (ix2 (0 : Fin 1) (col y : Fin 256))) (Ideal.ofBits .f32 0x00000000#32) := by
  obtain ⟨p, q, rfl⟩ : ∃ (p : Fin 5000) (q : Fin 256), y = ix2 p q := ⟨y 0, y 1, eq_ix2 y⟩
  unfold k1_pay1
  simp only [shapeCast_self]
  show max (x0 (ix2 p q) * broadcastTo S5000x256 x1 broadcasts_S5000x1_S5000x256 (ix2 p q) + broadcastTo S5000x256 x2 broadcasts_S1x256_S5000x256 (ix2 p q)) _ = _
  rw [Cert.LibRowOps.broadcastTo_a1_ab_apply, broadcastTo_1b_ab_apply]
  rfl

/-- The printed index maps over the grid: the row blocks move with the point, the bias row stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer's function of the three arrays as the region finds them. -/
theorem flushed1 (c : Dev nD) (t : Fin cfg1.N) :
    (dat1 V c).flushed 3 t = ((cfg1.win 3).blk t).view.read (Elt Ideal) (scaleBiasRelu 50000 256 (V c main_v35) (V c main_call2_v0) (V c main_call2_v1)) := by
  show (cfg1.win 3).cut (grid1.coords t) ((dat1 V c).after 3 t) = _
  rw [after1_3]
  unfold out1_3
  rw [View.canon_unit_zero hz]
  simp only [View.ld_unit_zero (S := S5000x256) hz, View.ld_unit_zero (S := S5000x1) hz, View.ld_unit_zero (S := S1x256) hz]
  obtain ⟨e0, e1, e2, e3, e4, e5, e6, e7⟩ := idx_facts1 t
  funext j
  refine (pay1_apply (iblk1 V c 0 t) (iblk1 V c 1 t) (iblk1 V c 2 t) j).trans ?_
  show _ = scaleBiasRelu 50000 256 (V c main_v35) (V c main_call2_v0) (V c main_call2_v1) (((cfg1.win 3).blk t).view.emb j)
  have hj0 : (j 0).val < 5000 := (j 0).isLt
  have hj1 : (j 1).val < 256 := (j 1).isLt
  have hA : ∀ k : Fin 256, iblk1 V c 0 t (ix2 (row j : Fin 5000) k)
      = V c main_v35 (ix2 (row (((cfg1.win 3).blk t).view.emb j) : Fin 50000) k) := fun k => by
    show V c main_v35 (((cfg1.win 0).blk t).view.emb (ix2 (row j : Fin 5000) k)) = _
    refine congrArg (V c main_v35) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 256 + 1 * k.val = k.val; omega
  have hD : iblk1 V c 1 t (ix2 (row j : Fin 5000) (0 : Fin 1))
      = V c main_call2_v0 (ix2 (row (((cfg1.win 3).blk t).view.emb j) : Fin 50000) (0 : Fin 1)) := by
    show V c main_call2_v0 (((cfg1.win 1).blk t).view.emb (ix2 (row j : Fin 5000) (0 : Fin 1))) = _
    refine congrArg (V c main_call2_v0) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have hB : ∀ k : Fin 256, iblk1 V c 2 t (ix2 (0 : Fin 1) k) = V c main_call2_v1 (ix2 (0 : Fin 1) k) := fun k => by
    show V c main_call2_v1 (((cfg1.win 2).blk t).view.emb (ix2 (0 : Fin 1) k)) = _
    refine congrArg (V c main_call2_v1) (funext fun a => Fin.ext ?_)
    match a with
    | ⟨0, _⟩ => show win1_2.index t (0 : Fin 2) * 1 + 1 * 0 = 0; omega
    | ⟨1, _⟩ => show win1_2.index t (1 : Fin 2) * 256 + 1 * k.val = k.val; omega
  have hcol : (col (((cfg1.win 3).blk t).view.emb j) : Fin 256) = col j := Fin.ext (by
    show win1_3.index t (1 : Fin 2) * 256 + 1 * (j 1).val = (j 1).val; omega)
  unfold scaleBiasRelu
  rw [hA (col j), hD, hB (col j), hcol]

/-- An index of the result array is in point t's block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v36).slice (win1_3.rect t)).set ↔ _
  rw [View.set_slice_whole, Rect.mem_set_unit]
  exact Iff.rfl

/-- Every index of the result array is in some point's block: row r is in the block of point r / 5000. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 10 := N_1
  refine ⟨⟨(i 0).val / 5000, by omega⟩, flush1_3 _, ?_⟩
  rw [mem_blk1]
  obtain ⟨e0, e1, e2, e3, e4, e5, e6, e7⟩ := idx_facts1 ⟨(i 0).val / 5000, by omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ _ ∧ _ < (i 0).val / 5000 * 5000 + 5000; omega
  | ⟨1, _⟩ => show win1_3.index _ (1 : Fin 2) * 256 ≤ (i 1).val ∧ (i 1).val < win1_3.index _ (1 : Fin 2) * 256 + 256; rw [e7]; omega

/-- Region 1's result array after the region: the layer's function of its three argument arrays as the region finds them. -/
theorem arr1 (c : Dev nD) : (dat1 V c).arrAt 3 cfg1.N = scaleBiasRelu 50000 256 (V c main_v35) (V c main_call2_v0) (V c main_call2_v1) :=
  (dat1 V c).arrAt_eq_of_cover 3 (scaleBiasRelu 50000 256 (V c main_v35) (V c main_call2_v0) (V c main_call2_v1)) (fun t _ => flushed1 V c t) cover1

/-! ## Region 3: scale each row, add the bias row, take the log-softmax of each row -/

/-- The log-softmax steps of the body on an arbitrary 5000×64 block Z, read at (p, q): with m the larger of −∞ and the
    maximum of row p, the entry Z(p, q) − m minus the logarithm of the sum over the lanes k of exp(Z(p, k) − m). -/
theorem lsm_block (Z : FVec Ideal S5000x64 .f32) (p : Fin 5000) (q : Fin 64) :
    subf (subf Z (broadcastTo S5000x64 (shapeCast S5000x1 (maximumf (broadcast S5000 (Scalar.ofBits (F := Ideal) .f32 0xFF800000#32))
        (multiReduction .maximumf [1] S5000 Z 0xFF800000#32 reduces_S5000x64_S5000 (.inl rfl) rfl)) shapeCasts_S5000_S5000x1) broadcasts_S5000x1_S5000x64))
      (broadcastTo S5000x64 (log (shapeCast S5000x1 (multiReduction .add [1] S5000 (exp (subf Z (broadcastTo S5000x64 (shapeCast S5000x1 (maximumf (broadcast S5000 (Scalar.ofBits (F := Ideal) .f32 0xFF800000#32))
        (multiReduction .maximumf [1] S5000 Z 0xFF800000#32 reduces_S5000x64_S5000 (.inl rfl) rfl)) shapeCasts_S5000_S5000x1) broadcasts_S5000x1_S5000x64)))
        0x00000000#32 reduces_S5000x64_S5000 (.inl rfl) rfl) shapeCasts_S5000_S5000x1)) broadcasts_S5000x1_S5000x64)
      (ix2 p q)
    = lsmRow (fun k : Fin 64 => Z (ix2 p k)) q := by
  -- the clamped maximum of row p
  have hmx : (maximumf (broadcast S5000 (Scalar.ofBits (F := Ideal) .f32 0xFF800000#32))
        (multiReduction .maximumf [1] S5000 Z 0xFF800000#32 reduces_S5000x64_S5000 (.inl rfl) rfl)) (ix1 p)
      = max (Ideal.ofBits .f32 0xFF800000#32) (Finset.univ.sup fun k' : Fin 64 => Z (ix2 p k')) :=
    congrArg (fun s => max (Ideal.ofBits .f32 0xFF800000#32) s)
      (Cert.LibRowReduce.rowMax_apply Z reduces_S5000x64_S5000 (.inl rfl) rfl p)
  -- the shifted block at (p, k): the entry minus the row's clamped maximum
  have hsh : ∀ k : Fin 64, (subf Z (broadcastTo S5000x64 (shapeCast S5000x1 (maximumf (broadcast S5000 (Scalar.ofBits (F := Ideal) .f32 0xFF800000#32))
        (multiReduction .maximumf [1] S5000 Z 0xFF800000#32 reduces_S5000x64_S5000 (.inl rfl) rfl)) shapeCasts_S5000_S5000x1) broadcasts_S5000x1_S5000x64)) (ix2 p k)
      = Z (ix2 p k) - max (Ideal.ofBits .f32 0xFF800000#32) (Finset.univ.sup fun k' : Fin 64 => Z (ix2 p k')) := fun k => by
    show Z (ix2 p k) - broadcastTo S5000x64 _ broadcasts_S5000x1_S5000x64 (ix2 p k) = _
    rw [Cert.LibRowOps.broadcastTo_a1_ab_apply, Cert.LibRowOps.shapeCast_a_a1_apply, hmx]
  show (subf Z (broadcastTo S5000x64 (shapeCast S5000x1 (maximumf (broadcast S5000 (Scalar.ofBits (F := Ideal) .f32 0xFF800000#32))
        (multiReduction .maximumf [1] S5000 Z 0xFF800000#32 reduces_S5000x64_S5000 (.inl rfl) rfl)) shapeCasts_S5000_S5000x1) broadcasts_S5000x1_S5000x64)) (ix2 p q) - broadcastTo S5000x64 _ broadcasts_S5000x1_S5000x64 (ix2 p q) = _
  rw [Cert.LibRowOps.broadcastTo_a1_ab_apply, hsh q]
  show _ - FloatOps.log (shapeCast S5000x1 _ shapeCasts_S5000_S5000x1 (ix2 p (0 : Fin 1))) = _
  rw [Cert.LibRowOps.shapeCast_a_a1_apply]
  refine (congrArg (fun s => _ - FloatOps.log s)
    (Cert.LibRowOps.rowSum_apply (exp (subf Z (broadcastTo S5000x64 (shapeCast S5000x1 (maximumf (broadcast S5000 (Scalar.ofBits (F := Ideal) .f32 0xFF800000#32))
        (multiReduction .maximumf [1] S5000 Z 0xFF800000#32 reduces_S5000x64_S5000 (.inl rfl) rfl)) shapeCasts_S5000_S5000x1) broadcasts_S5000x1_S5000x64))) 0x00000000#32 reduces_S5000x64_S5000 (.inl rfl) rfl p)).trans ?_
  unfold lsmRow
  refine congrArg (fun s => _ - Ideal.log s) (Finset.sum_congr rfl fun k _ => ?_)
  show FloatOps.exp ((subf Z (broadcastTo S5000x64 (shapeCast S5000x1 (maximumf (broadcast S5000 (Scalar.ofBits (F := Ideal) .f32 0xFF800000#32))
        (multiReduction .maximumf [1] S5000 Z 0xFF800000#32 reduces_S5000x64_S5000 (.inl rfl) rfl)) shapeCasts_S5000_S5000x1) broadcasts_S5000x1_S5000x64)) (ix2 p k)) = _
  rw [hsh k]
  rfl

/-- The body's payload at (p, q): the log-softmax of row p of the scaled and biased block, at lane q. -/
theorem pay3_apply (x0 : Vec Ideal S5000x64 .f32) (x1 : Vec Ideal S5000x1 .f32) (x2 : Vec Ideal S1x64 .f32) (y : S5000x64.Idx) :
    k3_pay1 x0 x1 x2 y = lsmRow (fun k : Fin 64 => x0 (ix2 (row y : Fin 5000) k) * x1 (ix2 (row y : Fin 5000) (0 : Fin 1)) + x2 (ix2 (0 : Fin 1) k)) (col y : Fin 64) := by
  obtain ⟨p, q, rfl⟩ : ∃ (p : Fin 5000) (q : Fin 64), y = ix2 p q := ⟨y 0, y 1, eq_ix2 y⟩
  unfold k3_pay1
  simp only [shapeCast_self]
  refine (lsm_block _ p q).trans ?_
  refine congrArg (fun f => lsmRow f q) (funext fun k => ?_)
  show x0 (ix2 p k) * broadcastTo S5000x64 x1 broadcasts_S5000x1_S5000x64 (ix2 p k) + broadcastTo S5000x64 x2 broadcasts_S1x64_S5000x64 (ix2 p k) = _
  rw [Cert.LibRowOps.broadcastTo_a1_ab_apply, broadcastTo_1b_ab_apply]

/-- The printed index maps over the grid: the row blocks move with the point, the bias row stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the layer's function of the three arrays as the region finds them. -/
theorem flushed3 (c : Dev nD) (t : Fin cfg3.N) :
    (dat3 V c).flushed 3 t = ((cfg3.win 3).blk t).view.read (Elt Ideal) (scaleBiasLsm 50000 64 (V c main_v50) (V c main_call4_v0) (V c main_call4_v1)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  obtain ⟨e0, e1, e2, e3, e4, e5, e6, e7⟩ := idx_facts3 t
  funext j
  refine (pay3_apply (iblk3 V c 0 t) (iblk3 V c 1 t) (iblk3 V c 2 t) j).trans ?_
  show _ = scaleBiasLsm 50000 64 (V c main_v50) (V c main_call4_v0) (V c main_call4_v1) (((cfg3.win 3).blk t).view.emb j)
  have hj0 : (j 0).val < 5000 := (j 0).isLt
  have hj1 : (j 1).val < 64 := (j 1).isLt
  have hA : ∀ k : Fin 64, iblk3 V c 0 t (ix2 (row j : Fin 5000) k)
      = V c main_v50 (ix2 (row (((cfg3.win 3).blk t).view.emb j) : Fin 50000) k) := fun k => by
    show V c main_v50 (((cfg3.win 0).blk t).view.emb (ix2 (row j : Fin 5000) k)) = _
    refine congrArg (V c main_v50) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  have hD : iblk3 V c 1 t (ix2 (row j : Fin 5000) (0 : Fin 1))
      = V c main_call4_v0 (ix2 (row (((cfg3.win 3).blk t).view.emb j) : Fin 50000) (0 : Fin 1)) := by
    show V c main_call4_v0 (((cfg3.win 1).blk t).view.emb (ix2 (row j : Fin 5000) (0 : Fin 1))) = _
    refine congrArg (V c main_call4_v0) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  have hB : ∀ k : Fin 64, iblk3 V c 2 t (ix2 (0 : Fin 1) k) = V c main_call4_v1 (ix2 (0 : Fin 1) k) := fun k => by
    show V c main_call4_v1 (((cfg3.win 2).blk t).view.emb (ix2 (0 : Fin 1) k)) = _
    refine congrArg (V c main_call4_v1) (funext fun a => Fin.ext ?_)
    match a with
    | ⟨0, _⟩ => show win3_2.index t (0 : Fin 2) * 1 + 1 * 0 = 0; omega
    | ⟨1, _⟩ => show win3_2.index t (1 : Fin 2) * 64 + 1 * k.val = k.val; omega
  have hcol : (col (((cfg3.win 3).blk t).view.emb j) : Fin 64) = col j := Fin.ext (by
    show win3_3.index t (1 : Fin 2) * 64 + 1 * (j 1).val = (j 1).val; omega)
  unfold scaleBiasLsm
  rw [hcol]
  refine congrArg (fun f => lsmRow f (col j)) (funext fun k => ?_)
  rw [hA k, hD, hB k]

/-- An index of the result array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v51).slice (win3_3.rect t)).set ↔ _
  rw [View.set_slice_whole, Rect.mem_set_unit]
  exact Iff.rfl

/-- Every index of the result array is in some point's block: row r is in the block of point r / 5000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  refine ⟨⟨(i 0).val / 5000, by omega⟩, flush3_3 _, ?_⟩
  rw [mem_blk3]
  obtain ⟨e0, e1, e2, e3, e4, e5, e6, e7⟩ := idx_facts3 ⟨(i 0).val / 5000, by omega⟩
  intro a
  match a with
  | ⟨0, _⟩ => show win3_3.index _ (0 : Fin 2) * 5000 ≤ (i 0).val ∧ (i 0).val < win3_3.index _ (0 : Fin 2) * 5000 + 5000; rw [e6]; show (i 0).val / 5000 * 5000 ≤ _ ∧ _ < (i 0).val / 5000 * 5000 + 5000; omega
  | ⟨1, _⟩ => show win3_3.index _ (1 : Fin 2) * 64 ≤ (i 1).val ∧ (i 1).val < win3_3.index _ (1 : Fin 2) * 64 + 64; rw [e7]; omega

/-- Region 3's result array after the region: the layer's function of its three argument arrays as the region finds them. -/
theorem arr3 (c : Dev nD) : (dat3 V c).arrAt 3 cfg3.N = scaleBiasLsm 50000 64 (V c main_v50) (V c main_call4_v0) (V c main_call4_v1) :=
  (dat3 V c).arrAt_eq_of_cover 3 (scaleBiasLsm 50000 64 (V c main_v50) (V c main_call4_v0) (V c main_call4_v1)) (fun t _ => flushed3 V c t) cover3

end Cert.KernelIdeal.GcnEpilogues
end
-- ==== Proof.GcnHost.lean ====
/-
  The host-side expressions the two programs share, written once over the reference's dimension records.

  * `normalise`: Python-style index normalisation of a vector of 850000 edge words against 50000 nodes: a negative word
    has 50000 added, any other word is left alone.
  * `agg256`, `agg64`: the kernel's per-layer aggregate: the rows of a table gathered at the normalised source words, each
    scaled by a per-edge factor, summed into the (raw) destination words by an accumulating scatter into zeros. The
    reference's aggregate is the same expression with the per-edge factor dinv[src]·dinv[dst] in place of dinv[src].
-/
import proofs.«156187_j27659589386355_2_alg».proof.Proof.Gen.ReferenceIdeal
import Idealize.ShloMosaic.PureOps.Ideal

noncomputable section

namespace Cert.Gcn

open Cert.ReferenceIdeal Cert.ReferenceIdeal.Gen Idealize.ShloMosaic

/-- Python-style normalisation of the edge words: a negative word has 50000 added. -/
def normalise (w : IVec S850000 32) : IVec S850000 32 :=
  select (cmpi .slt w (broadcastInDim S850000 ![] bcast_S_S850000 (constantI S_ 32 0#32)))
    (addi w (broadcastInDim S850000 ![] bcast_S_S850000 (constantI S_ 32 50000#32))) w

/-- The kernel's aggregate for 256 columns: the rows of `H` gathered at the (normalised) source words, each scaled by the
    per-edge factor `dsrc`, summed into the destination words. -/
def agg256 (H : FVec Ideal S50000x256 .f32) (src dst : IVec S850000 32) (dsrc : FVec Ideal S850000 .f32) : FVec Ideal S50000x256 .f32 :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 dst)
    (mulf (Host.gather gather_S50000x256_S850000x1_S850000x256_1_0_n_n_0_1_1256 H
        (broadcastInDim S850000x1 ![0] bcast_S850000_S850000x1_0 (normalise src)))
      (broadcastInDim S850000x256 ![0, 1] bcast_S850000x1_S850000x256_0_1
        (broadcastInDim S850000x1 ![0] bcast_S850000_S850000x1_0 dsrc)))

/-- The kernel's aggregate for 64 columns: the rows of `H` gathered at the (normalised) source words, each scaled by the
    per-edge factor `dsrc`, summed into the destination words. -/
def agg64 (H : FVec Ideal S50000x64 .f32) (src dst : IVec S850000 32) (dsrc : FVec Ideal S850000 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (mulf (Host.gather gather_S50000x64_S850000x1_S850000x64_1_0_n_n_0_1_164 H
        (broadcastInDim S850000x1 ![0] bcast_S850000_S850000x1_0 (normalise src)))
      (broadcastInDim S850000x64 ![0, 1] bcast_S850000x1_S850000x64_0_1
        (broadcastInDim S850000x1 ![0] bcast_S850000_S850000x1_0 dsrc)))

end Cert.Gcn

end
-- ==== Proof.KernelValue.lean ====
/-
  The idealized kernel program's result array as one function of the launch arrays.

  Between its four kernel regions the program runs stretches of host operations. Stretch 0 builds, from the edge list,
  the source and destination words (each row of the list followed by one self loop per node), the in-degree of every node
  (an accumulating scatter of ones at the destination words), the per-node factor dinv (the reciprocal square root of the
  in-degree where it is positive, zero elsewhere) and the per-edge factor dinv[src]. Stretches 1 and 3 each build one
  layer's aggregate — the rows of the layer's product gathered at the source words, scaled by the per-edge factor, summed
  into the destination words — and recast dinv as a column and the layer's bias as a row for the epilogue region.

  First, for ANY buffer contents `V` at a stretch's entry, each value the stretch produces is the stretch's operations
  composed on the values it reads, and a buffer it does not write keeps its contents (unfolding the stretch one
  operation at a time). The values stretch 0 produces are the same expressions as the reference's stages of the edge
  list, so they are named by those. Then the boundary contents are walked from the launch memory to the last boundary:
  a region leaves its result array at the whole-array function of its argument arrays (the products and epilogues of the
  two layers) and every other buffer as entered. The result is `kernelOut`: the log-softmax of each row of
  agg₂·dinv + b₂, where agg₂ aggregates the rows of relu(agg₁·dinv + b₁)·W₂ and agg₁ the rows of x·W₁.
-/
import proofs.«156187_j27659589386355_2_alg».proof.Proof.Gen.KernelIdeal.Frame
import proofs.«156187_j27659589386355_2_alg».proof.Proof.KernelProducts
import proofs.«156187_j27659589386355_2_alg».proof.Proof.KernelEpilogues
import proofs.«156187_j27659589386355_2_alg».proof.Proof.GcnHost
import proofs.«156187_j27659589386355_2_alg».proof.Proof.RefReadPatched
import Idealize.ShloMosaic.Lib.StableHlo.Run

set_option maxRecDepth 16384

noncomputable section

namespace Cert.KernelIdeal.GcnValue

open Cert.KernelIdeal Cert.KernelIdeal.Gen Cert.Gcn
open Idealize.ShloMosaic Idealize.ShloMosaic.TcCoe Idealize.ShloMosaic.ValueIdx Idealize.ShloMosaic.StableHlo
open Idealize.SL Idealize.SL.Sem

/-- Contents carried to a buffer's own type and back are the contents. -/
theorem ofBuf_toBuf {T : BufTy} (x : TRef sig T) (v : T.Contents (Elt Ideal)) : x.ofBuf (x.toBuf v) = v := by
  obtain ⟨r, rfl, h1, h2⟩ := x
  rfl

/-! ## The host stretches, from any contents at their entry -/

set_option maxRecDepth 100000 in
set_option maxHeartbeats 4000000 in
/-- After the first part of stretch 0 the source words are the reference's stage of the edge list. -/
theorem k0a_v3 (V : Valuation τ sig (Elt Ideal))
    :
    after hostOps0 V (Proc.devRef .tc main_v3) = Cert.ReferenceIdeal.ReadP.val_main_v3 (F := Ideal) (V (Proc.devRef .tc main_arg1)) := by
  after_results
  rfl

set_option maxRecDepth 100000 in
set_option maxHeartbeats 4000000 in
/-- Likewise the destination words. -/
theorem k0a_v6 (V : Valuation τ sig (Elt Ideal))
    :
    after hostOps0 V (Proc.devRef .tc main_v6) = Cert.ReferenceIdeal.ReadP.val_main_v6 (F := Ideal) (V (Proc.devRef .tc main_arg1)) := by
  after_results
  rfl

set_option maxRecDepth 100000 in
set_option maxHeartbeats 4000000 in
/-- Likewise the mask 'the in-degree is positive'. -/
theorem k0a_v12 (V : Valuation τ sig (Elt Ideal))
    :
    after hostOps0 V (Proc.devRef .tc main_v12) = Cert.ReferenceIdeal.ReadP.val_main_v12 (F := Ideal) (V (Proc.devRef .tc main_arg1)) := by
  after_results
  rfl

set_option maxRecDepth 100000 in
set_option maxHeartbeats 4000000 in
/-- Likewise the reciprocal square root of the in-degree. -/
theorem k0a_v13 (V : Valuation τ sig (Elt Ideal))
    :
    after hostOps0 V (Proc.devRef .tc main_v13) = Cert.ReferenceIdeal.ReadP.val_main_v13 (F := Ideal) (V (Proc.devRef .tc main_arg1)) := by
  after_results
  rfl

set_option maxRecDepth 100000 in
set_option maxHeartbeats 4000000 in
/-- Likewise the zero the mask selects elsewhere. -/
theorem k0a_cst_2 (V : Valuation τ sig (Elt Ideal))
    :
    after hostOps0 V (Proc.devRef .tc main_cst_2) = Cert.ReferenceIdeal.ReadP.val_main_cst_2 (F := Ideal) := by
  after_results
  rfl

set_option maxRecDepth 100000 in
set_option maxHeartbeats 4000000 in
theorem k0a_keep_arg0 (V : Valuation τ sig (Elt Ideal)) : after hostOps0 V (Proc.devRef .tc main_arg0) = V (Proc.devRef .tc main_arg0) := by
  after_results

set_option maxRecDepth 100000 in
set_option maxHeartbeats 4000000 in
theorem k0a_keep_arg2 (V : Valuation τ sig (Elt Ideal)) : after hostOps0 V (Proc.devRef .tc main_arg2) = V (Proc.devRef .tc main_arg2) := by
  after_results

set_option maxRecDepth 100000 in
set_option maxHeartbeats 4000000 in
theorem k0a_keep_arg3 (V : Valuation τ sig (Elt Ideal)) : after hostOps0 V (Proc.devRef .tc main_arg3) = V (Proc.devRef .tc main_arg3) := by
  after_results

set_option maxRecDepth 100000 in
set_option maxHeartbeats 4000000 in
theorem k0a_keep_arg4 (V : Valuation τ sig (Elt Ideal)) : after hostOps0 V (Proc.devRef .tc main_arg4) = V (Proc.devRef .tc main_arg4) := by
  after_results

set_option maxRecDepth 100000 in
set_option maxHeartbeats 4000000 in
theorem k0a_keep_arg5 (V : Valuation τ sig (Elt Ideal)) : after hostOps0 V (Proc.devRef .tc main_arg5) = V (Proc.devRef .tc main_arg5) := by
  after_results

set_option maxRecDepth 100000 in
set_option maxHeartbeats 4000000 in
/-- The second part of stretch 0 selects, entry by entry, the reciprocal square root where the mask holds and the zero
    elsewhere. -/
theorem k0b_v14 (V : Valuation τ sig (Elt Ideal)) :
    after hostOps0_1 V (Proc.devRef .tc main_v14)
      = select (V (Proc.devRef .tc main_v12)) (V (Proc.devRef .tc main_v13))
          (broadcastInDim S50000 ![] bcast_S_S50000 (V (Proc.devRef .tc main_cst_2))) := by
  after_results
  simp only [ofBuf_toBuf]
  rfl

set_option maxRecDepth 100000 in
set_option maxHeartbeats 4000000 in
theorem k0b_keep_v3 (V : Valuation τ sig (Elt Ideal)) : after hostOps0_1 V (Proc.devRef .tc main_v3) = V (Proc.devRef .tc main_v3) := by
  after_results

set_option maxRecDepth 100000 in
set_option maxHeartbeats 4000000 in
theorem k0b_keep_v6 (V : Valuation τ sig (Elt Ideal)) : after hostOps0_1 V (Proc.devRef .tc main_v6) = V (Proc.devRef .tc main_v6) := by
  after_results

set_option maxRecDepth 100000 in
set_option maxHeartbeats 4000000 in
theorem k0b_keep_arg0 (V : Valuation τ sig (Elt Ideal)) : after hostOps0_1 V (Proc.devRef .tc main_arg0) = V (Proc.devRef .tc main_arg0) := by
  after_results

set_option maxRecDepth 100000 in
set_option maxHeartbeats 4000000 in
theorem k0b_keep_arg2 (V : Valuation τ sig (Elt Ideal)) : after hostOps0_1 V (Proc.devRef .tc main_arg2) = V (Proc.devRef .tc main_arg2) := by
  after_results

set_option maxRecDepth 100000 in
set_option maxHeartbeats 4000000 in
theorem k0b_keep_arg3 (V : Valuation τ sig (Elt Ideal)) : after hostOps0_1 V (Proc.devRef .tc main_arg3) = V (Proc.devRef .tc main_arg3) := by
  after_results

set_option maxRecDepth 100000 in
set_option maxHeartbeats 4000000 in
theorem k0b_keep_arg4 (V : Valuation τ sig (Elt Ideal)) : after hostOps0_1 V (Proc.devRef .tc main_arg4) = V (Proc.devRef .tc main_arg4) := by
  after_results

set_option maxRecDepth 100000 in
set_option maxHeartbeats 4000000 in
theorem k0b_keep_arg5 (V : Valuation τ sig (Elt Ideal)) : after hostOps0_1 V (Proc.devRef .tc main_arg5) = V (Proc.devRef .tc main_arg5) := by
  after_results

set_option maxRecDepth 100000 in
set_option maxHeartbeats 4000000 in
/-- The third part of stretch 0 gathers the per-node factor at the normalised source words: the reference's stage of the same gather. -/
theorem k0c_v21 (V : Valuation τ sig (Elt Ideal)) (x1 : (⟨Cert.ReferenceIdeal.S2x800000, .i32⟩ : BufTy).Contents (Elt Ideal))
    (h_v3 : V (Proc.devRef .tc main_v3) = Cert.ReferenceIdeal.ReadP.val_main_v3 (F := Ideal) x1)
    (h_v14 : V (Proc.devRef .tc main_v14) = Cert.ReferenceIdeal.ReadP.val_main_v14 (F := Ideal) x1) :
    after hostOps0_2 V (Proc.devRef .tc main_v21) = Cert.ReferenceIdeal.ReadP.val_main_v22 (F := Ideal) x1 := by
  after_results
  rw [h_v3, h_v14]
  rfl

set_option maxRecDepth 100000 in
set_option maxHeartbeats 4000000 in
theorem k0c_keep_v3 (V : Valuation τ sig (Elt Ideal)) : after hostOps0_2 V (Proc.devRef .tc main_v3) = V (Proc.devRef .tc main_v3) := by
  after_results

set_option maxRecDepth 100000 in
set_option maxHeartbeats 4000000 in
theorem k0c_keep_v6 (V : Valuation τ sig (Elt Ideal)) : after hostOps0_2 V (Proc.devRef .tc main_v6) = V (Proc.devRef .tc main_v6) := by
  after_results

set_option maxRecDepth 100000 in
set_option maxHeartbeats 4000000 in
theorem k0c_keep_v14 (V : Valuation τ sig (Elt Ideal)) : after hostOps0_2 V (Proc.devRef .tc main_v14) = V (Proc.devRef .tc main_v14) := by
  after_results

set_option maxRecDepth 100000 in
set_option maxHeartbeats 4000000 in
theorem k0c_keep_arg0 (V : Valuation τ sig (Elt Ideal)) : after hostOps0_2 V (Proc.devRef .tc main_arg0) = V (Proc.devRef .tc main_arg0) := by
  after_results

set_option maxRecDepth 100000 in
set_option maxHeartbeats 4000000 in
theorem k0c_keep_arg2 (V : Valuation τ sig (Elt Ideal)) : after hostOps0_2 V (Proc.devRef .tc main_arg2) = V (Proc.devRef .tc main_arg2) := by
  after_results

set_option maxRecDepth 100000 in
set_option maxHeartbeats 4000000 in
theorem k0c_keep_arg3 (V : Valuation τ sig (Elt Ideal)) : after hostOps0_2 V (Proc.devRef .tc main_arg3) = V (Proc.devRef .tc main_arg3) := by
  after_results

set_option maxRecDepth 100000 in
set_option maxHeartbeats 4000000 in
theorem k0c_keep_arg4 (V : Valuation τ sig (Elt Ideal)) : after hostOps0_2 V (Proc.devRef .tc main_arg4) = V (Proc.devRef .tc main_arg4) := by
  after_results

set_option maxRecDepth 100000 in
set_option maxHeartbeats 4000000 in
theorem k0c_keep_arg5 (V : Valuation τ sig (Elt Ideal)) : after hostOps0_2 V (Proc.devRef .tc main_arg5) = V (Proc.devRef .tc main_arg5) := by
  after_results

set_option maxRecDepth 100000 in
set_option maxHeartbeats 4000000 in
/-- Stretch 1 builds the first layer's aggregate from the first product, the edge words and the per-edge factor. -/
theorem k1_v35 (V : Valuation τ sig (Elt Ideal))
    :
    after hostOps1_1 (after hostOps1 V) (Proc.devRef .tc main_v35) = agg256 (V (Proc.devRef .tc main_v22)) (V (Proc.devRef .tc main_v3)) (V (Proc.devRef .tc main_v6)) (V (Proc.devRef .tc main_v21)) := by
  after_results
  rfl

set_option maxRecDepth 100000 in
set_option maxHeartbeats 4000000 in
/-- and recasts the per-node factor as a column, -/
theorem k1_c0 (V : Valuation τ sig (Elt Ideal))
    :
    after hostOps1_1 (after hostOps1 V) (Proc.devRef .tc main_call2_v0) = shapeCast S50000x1 (V (Proc.devRef .tc main_v14)) shapeCasts_S50000_S50000x1 := by
  after_results
  rfl

set_option maxRecDepth 100000 in
set_option maxHeartbeats 4000000 in
/-- and the first bias as a row. -/
theorem k1_c1 (V : Valuation τ sig (Elt Ideal))
    :
    after hostOps1_1 (after hostOps1 V) (Proc.devRef .tc main_call2_v1) = shapeCast S1x256 (V (Proc.devRef .tc main_arg3)) shapeCasts_S256_S1x256 := by
  after_results
  rfl

set_option maxRecDepth 100000 in
set_option maxHeartbeats 4000000 in
theorem k1_keep_v3 (V : Valuation τ sig (Elt Ideal)) : after hostOps1_1 (after hostOps1 V) (Proc.devRef .tc main_v3) = V (Proc.devRef .tc main_v3) := by
  after_results

set_option maxRecDepth 100000 in
set_option maxHeartbeats 4000000 in
theorem k1_keep_v6 (V : Valuation τ sig (Elt Ideal)) : after hostOps1_1 (after hostOps1 V) (Proc.devRef .tc main_v6) = V (Proc.devRef .tc main_v6) := by
  after_results

set_option maxRecDepth 100000 in
set_option maxHeartbeats 4000000 in
theorem k1_keep_v14 (V : Valuation τ sig (Elt Ideal)) : after hostOps1_1 (after hostOps1 V) (Proc.devRef .tc main_v14) = V (Proc.devRef .tc main_v14) := by
  after_results

set_option maxRecDepth 100000 in
set_option maxHeartbeats 4000000 in
theorem k1_keep_v21 (V : Valuation τ sig (Elt Ideal)) : after hostOps1_1 (after hostOps1 V) (Proc.devRef .tc main_v21) = V (Proc.devRef .tc main_v21) := by
  after_results

set_option maxRecDepth 100000 in
set_option maxHeartbeats 4000000 in
theorem k1_keep_arg4 (V : Valuation τ sig (Elt Ideal)) : after hostOps1_1 (after hostOps1 V) (Proc.devRef .tc main_arg4) = V (Proc.devRef .tc main_arg4) := by
  after_results

set_option maxRecDepth 100000 in
set_option maxHeartbeats 4000000 in
theorem k1_keep_arg5 (V : Valuation τ sig (Elt Ideal)) : after hostOps1_1 (after hostOps1 V) (Proc.devRef .tc main_arg5) = V (Proc.devRef .tc main_arg5) := by
  after_results

set_option maxRecDepth 100000 in
set_option maxHeartbeats 4000000 in
/-- Stretch 3 builds the second layer's aggregate from the second product, the edge words and the per-edge factor. -/
theorem k3_v50 (V : Valuation τ sig (Elt Ideal))
    :
    after hostOps3_1 (after hostOps3 V) (Proc.devRef .tc main_v50) = agg64 (V (Proc.devRef .tc main_v37)) (V (Proc.devRef .tc main_v3)) (V (Proc.devRef .tc main_v6)) (V (Proc.devRef .tc main_v21)) := by
  after_results
  rfl

set_option maxRecDepth 100000 in
set_option maxHeartbeats 4000000 in
/-- and recasts the per-node factor as a column, -/
theorem k3_c0 (V : Valuation τ sig (Elt Ideal))
    :
    after hostOps3_1 (after hostOps3 V) (Proc.devRef .tc main_call4_v0) = shapeCast S50000x1 (V (Proc.devRef .tc main_v14)) shapeCasts_S50000_S50000x1 := by
  after_results
  rfl

set_option maxRecDepth 100000 in
set_option maxHeartbeats 4000000 in
/-- and the second bias as a row. -/
theorem k3_c1 (V : Valuation τ sig (Elt Ideal))
    :
    after hostOps3_1 (after hostOps3 V) (Proc.devRef .tc main_call4_v1) = shapeCast S1x64 (V (Proc.devRef .tc main_arg5)) shapeCasts_S64_S1x64 := by
  after_results
  rfl

/-! ## The kernel's result as one function of the launch arrays -/

section Chain

variable (m : (ℓ : Loc nD τ sig) → Buf (Elt Ideal) ℓ) (ρ : Dev nD → PrngReg) (c : Dev nD)

/-- The launch arrays: features, edge list, first weights, first bias, second weights, second bias. -/
abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
/-- Source words, destination words, the per-node factor dinv and the per-edge factor dinv[src]: the reference's stages
    of the edge list. -/
abbrev SRC := Cert.ReferenceIdeal.ReadP.val_main_v3 (F := Ideal) (X1 m c)
abbrev DST := Cert.ReferenceIdeal.ReadP.val_main_v6 (F := Ideal) (X1 m c)
abbrev DINV := Cert.ReferenceIdeal.ReadP.val_main_v14 (F := Ideal) (X1 m c)
abbrev DSRC := Cert.ReferenceIdeal.ReadP.val_main_v22 (F := Ideal) (X1 m c)
/-- dinv as a column, and the two bias rows. -/
abbrev DCOL := shapeCast S50000x1 (DINV m c) shapeCasts_S50000_S50000x1
abbrev B1 := shapeCast S1x256 (X3 m c) shapeCasts_S256_S1x256
abbrev B2 := shapeCast S1x64 (X5 m c) shapeCasts_S64_S1x64
/-- First product, first aggregate, first layer's output, second product, second aggregate. -/
abbrev H1 := matProd 50000 512 256 (X0 m c) (X2 m c)
abbrev A1 := agg256 (H1 m c) (SRC m c) (DST m c) (DSRC m c)
abbrev R1 := scaleBiasRelu 50000 256 (A1 m c) (DCOL m c) (B1 m c)
abbrev H2 := matProd 50000 256 64 (R1 m c) (X4 m c)
abbrev A2 := agg64 (H2 m c) (SRC m c) (DST m c) (DSRC m c)

/-- The kernel's result: the log-softmax of each row of (second aggregate)·dinv + second bias. -/
def kernelOut : S50000x64.Idx → EReal := scaleBiasLsm 50000 64 (A2 m c) (DCOL m c) (B2 m c)

set_option maxHeartbeats 4000000 in
/-- The last boundary's contents at the result array are `kernelOut` of the launch arrays: the boundary values walked
    from the launch memory through the three parts of stretch 0, region 0, stretch 1, regions 1 and 2, stretch 3 and
    region 3, each value a later segment reads carried unchanged through the segments that do not write it. -/
theorem kernel_value : W11 m ρ c (Proc.devRef .tc main_v51) = kernelOut m c := by
  have a0_1 : W1 m ρ c (Proc.devRef .tc main_arg0) = X0 m c := k0a_keep_arg0 (W0 m ρ c)
  have a2_1 : W1 m ρ c (Proc.devRef .tc main_arg2) = X2 m c := k0a_keep_arg2 (W0 m ρ c)
  have a3_1 : W1 m ρ c (Proc.devRef .tc main_arg3) = X3 m c := k0a_keep_arg3 (W0 m ρ c)
  have a4_1 : W1 m ρ c (Proc.devRef .tc main_arg4) = X4 m c := k0a_keep_arg4 (W0 m ρ c)
  have a5_1 : W1 m ρ c (Proc.devRef .tc main_arg5) = X5 m c := k0a_keep_arg5 (W0 m ρ c)
  have v3_1 : W1 m ρ c (Proc.devRef .tc main_v3) = SRC m c := k0a_v3 (W0 m ρ c)
  have v6_1 : W1 m ρ c (Proc.devRef .tc main_v6) = DST m c := k0a_v6 (W0 m ρ c)
  have v12_1 : W1 m ρ c (Proc.devRef .tc main_v12) = Cert.ReferenceIdeal.ReadP.val_main_v12 (F := Ideal) (X1 m c) := k0a_v12 (W0 m ρ c)
  have v13_1 : W1 m ρ c (Proc.devRef .tc main_v13) = Cert.ReferenceIdeal.ReadP.val_main_v13 (F := Ideal) (X1 m c) := k0a_v13 (W0 m ρ c)
  have c2_1 : W1 m ρ c (Proc.devRef .tc main_cst_2) = Cert.ReferenceIdeal.ReadP.val_main_cst_2 (F := Ideal) := k0a_cst_2 (W0 m ρ c)
  -- the per-node factor
  have v14_2 : W2 m ρ c (Proc.devRef .tc main_v14) = DINV m c := (k0b_v14 (W1 m ρ c)).trans (by rw [v12_1, v13_1, c2_1]; rfl)
  have v3_2 : W2 m ρ c (Proc.devRef .tc main_v3) = SRC m c := (k0b_keep_v3 (W1 m ρ c)).trans v3_1
  have v6_2 : W2 m ρ c (Proc.devRef .tc main_v6) = DST m c := (k0b_keep_v6 (W1 m ρ c)).trans v6_1
  have a0_2 : W2 m ρ c (Proc.devRef .tc main_arg0) = X0 m c := (k0b_keep_arg0 (W1 m ρ c)).trans a0_1
  have a2_2 : W2 m ρ c (Proc.devRef .tc main_arg2) = X2 m c := (k0b_keep_arg2 (W1 m ρ c)).trans a2_1
  have a3_2 : W2 m ρ c (Proc.devRef .tc main_arg3) = X3 m c := (k0b_keep_arg3 (W1 m ρ c)).trans a3_1
  have a4_2 : W2 m ρ c (Proc.devRef .tc main_arg4) = X4 m c := (k0b_keep_arg4 (W1 m ρ c)).trans a4_1
  have a5_2 : W2 m ρ c (Proc.devRef .tc main_arg5) = X5 m c := (k0b_keep_arg5 (W1 m ρ c)).trans a5_1
  -- the per-edge factor
  have v21_3 : W3 m ρ c (Proc.devRef .tc main_v21) = DSRC m c := k0c_v21 (W2 m ρ c) (X1 m c) v3_2 v14_2
  have v3_3 : W3 m ρ c (Proc.devRef .tc main_v3) = SRC m c := (k0c_keep_v3 (W2 m ρ c)).trans v3_2
  have v6_3 : W3 m ρ c (Proc.devRef .tc main_v6) = DST m c := (k0c_keep_v6 (W2 m ρ c)).trans v6_2
  have v14_3 : W3 m ρ c (Proc.devRef .tc main_v14) = DINV m c := (k0c_keep_v14 (W2 m ρ c)).trans v14_2
  have a0_3 : W3 m ρ c (Proc.devRef .tc main_arg0) = X0 m c := (k0c_keep_arg0 (W2 m ρ c)).trans a0_2
  have a2_3 : W3 m ρ c (Proc.devRef .tc main_arg2) = X2 m c := (k0c_keep_arg2 (W2 m ρ c)).trans a2_2
  have a3_3 : W3 m ρ c (Proc.devRef .tc main_arg3) = X3 m c := (k0c_keep_arg3 (W2 m ρ c)).trans a3_2
  have a4_3 : W3 m ρ c (Proc.devRef .tc main_arg4) = X4 m c := (k0c_keep_arg4 (W2 m ρ c)).trans a4_2
  have a5_3 : W3 m ρ c (Proc.devRef .tc main_arg5) = X5 m c := (k0c_keep_arg5 (W2 m ρ c)).trans a5_2
  -- region 0: the first product
  have v22_4 : W4 m ρ c (Proc.devRef .tc main_v22) = H1 m c :=
    (W4_arr m ρ c 2).trans ((Cert.KernelIdeal.GcnProducts.arr0 (V3 m ρ) c).trans (by
      rw [show V3 m ρ c main_arg0 = X0 m c from a0_3, show V3 m ρ c main_arg2 = X2 m c from a2_3]))
  have v3_4 : W4 m ρ c (Proc.devRef .tc main_v3) = SRC m c := (W4_of_ne m ρ c main_v3 (by decide)).trans v3_3
  have v6_4 : W4 m ρ c (Proc.devRef .tc main_v6) = DST m c := (W4_of_ne m ρ c main_v6 (by decide)).trans v6_3
  have v14_4 : W4 m ρ c (Proc.devRef .tc main_v14) = DINV m c := (W4_of_ne m ρ c main_v14 (by decide)).trans v14_3
  have v21_4 : W4 m ρ c (Proc.devRef .tc main_v21) = DSRC m c := (W4_of_ne m ρ c main_v21 (by decide)).trans v21_3
  have a3_4 : W4 m ρ c (Proc.devRef .tc main_arg3) = X3 m c := (W4_of_ne m ρ c main_arg3 (by decide)).trans a3_3
  have a4_4 : W4 m ρ c (Proc.devRef .tc main_arg4) = X4 m c := (W4_of_ne m ρ c main_arg4 (by decide)).trans a4_3
  have a5_4 : W4 m ρ c (Proc.devRef .tc main_arg5) = X5 m c := (W4_of_ne m ρ c main_arg5 (by decide)).trans a5_3
  -- stretch 1: the first aggregate, the factor column, the first bias row
  have v35_6 : W6 m ρ c (Proc.devRef .tc main_v35) = A1 m c := (k1_v35 (W4 m ρ c)).trans (by rw [v22_4, v3_4, v6_4, v21_4])
  have c0_6 : W6 m ρ c (Proc.devRef .tc main_call2_v0) = DCOL m c := (k1_c0 (W4 m ρ c)).trans (by rw [v14_4])
  have c1_6 : W6 m ρ c (Proc.devRef .tc main_call2_v1) = B1 m c := (k1_c1 (W4 m ρ c)).trans (by rw [a3_4])
  have v3_6 : W6 m ρ c (Proc.devRef .tc main_v3) = SRC m c := (k1_keep_v3 (W4 m ρ c)).trans v3_4
  have v6_6 : W6 m ρ c (Proc.devRef .tc main_v6) = DST m c := (k1_keep_v6 (W4 m ρ c)).trans v6_4
  have v14_6 : W6 m ρ c (Proc.devRef .tc main_v14) = DINV m c := (k1_keep_v14 (W4 m ρ c)).trans v14_4
  have v21_6 : W6 m ρ c (Proc.devRef .tc main_v21) = DSRC m c := (k1_keep_v21 (W4 m ρ c)).trans v21_4
  have a4_6 : W6 m ρ c (Proc.devRef .tc main_arg4) = X4 m c := (k1_keep_arg4 (W4 m ρ c)).trans a4_4
  have a5_6 : W6 m ρ c (Proc.devRef .tc main_arg5) = X5 m c := (k1_keep_arg5 (W4 m ρ c)).trans a5_4
  -- region 1: the first layer's output
  have v36_7 : W7 m ρ c (Proc.devRef .tc main_v36) = R1 m c :=
    (W7_arr m ρ c 3).trans ((Cert.KernelIdeal.GcnEpilogues.arr1 (V6 m ρ) c).trans (by
      rw [show V6 m ρ c main_v35 = A1 m c from v35_6, show V6 m ρ c main_call2_v0 = DCOL m c from c0_6,
        show V6 m ρ c main_call2_v1 = B1 m c from c1_6]))
  have v3_7 : W7 m ρ c (Proc.devRef .tc main_v3) = SRC m c := (W7_of_ne m ρ c main_v3 (by decide)).trans v3_6
  have v6_7 : W7 m ρ c (Proc.devRef .tc main_v6) = DST m c := (W7_of_ne m ρ c main_v6 (by decide)).trans v6_6
  have v14_7 : W7 m ρ c (Proc.devRef .tc main_v14) = DINV m c := (W7_of_ne m ρ c main_v14 (by decide)).trans v14_6
  have v21_7 : W7 m ρ c (Proc.devRef .tc main_v21) = DSRC m c := (W7_of_ne m ρ c main_v21 (by decide)).trans v21_6
  have a4_7 : W7 m ρ c (Proc.devRef .tc main_arg4) = X4 m c := (W7_of_ne m ρ c main_arg4 (by decide)).trans a4_6
  have a5_7 : W7 m ρ c (Proc.devRef .tc main_arg5) = X5 m c := (W7_of_ne m ρ c main_arg5 (by decide)).trans a5_6
  -- region 2: the second product
  have v37_8 : W8 m ρ c (Proc.devRef .tc main_v37) = H2 m c :=
    (W8_arr m ρ c 2).trans ((Cert.KernelIdeal.GcnProducts.arr2 (V7 m ρ) c).trans (by
      rw [show V7 m ρ c main_v36 = R1 m c from v36_7, show V7 m ρ c main_arg4 = X4 m c from a4_7]))
  have v3_8 : W8 m ρ c (Proc.devRef .tc main_v3) = SRC m c := (W8_of_ne m ρ c main_v3 (by decide)).trans v3_7
  have v6_8 : W8 m ρ c (Proc.devRef .tc main_v6) = DST m c := (W8_of_ne m ρ c main_v6 (by decide)).trans v6_7
  have v14_8 : W8 m ρ c (Proc.devRef .tc main_v14) = DINV m c := (W8_of_ne m ρ c main_v14 (by decide)).trans v14_7
  have v21_8 : W8 m ρ c (Proc.devRef .tc main_v21) = DSRC m c := (W8_of_ne m ρ c main_v21 (by decide)).trans v21_7
  have a5_8 : W8 m ρ c (Proc.devRef .tc main_arg5) = X5 m c := (W8_of_ne m ρ c main_arg5 (by decide)).trans a5_7
  -- stretch 3: the second aggregate, the factor column, the second bias row
  have v50_10 : W10 m ρ c (Proc.devRef .tc main_v50) = A2 m c := (k3_v50 (W8 m ρ c)).trans (by rw [v37_8, v3_8, v6_8, v21_8])
  have c0_10 : W10 m ρ c (Proc.devRef .tc main_call4_v0) = DCOL m c := (k3_c0 (W8 m ρ c)).trans (by rw [v14_8])
  have c1_10 : W10 m ρ c (Proc.devRef .tc main_call4_v1) = B2 m c := (k3_c1 (W8 m ρ c)).trans (by rw [a5_8])
  -- region 3: the log-softmax rows
  exact (W11_arr m ρ c 3).trans ((Cert.KernelIdeal.GcnEpilogues.arr3 (V10 m ρ) c).trans (by
    rw [show V10 m ρ c main_v50 = A2 m c from v50_10, show V10 m ρ c main_call4_v0 = DCOL m c from c0_10,
      show V10 m ρ c main_call4_v1 = B2 m c from c1_10]; rfl))

end Chain

end Cert.KernelIdeal.GcnValue
end
-- ==== Proof.RefStretches.lean ====
/-
  The idealized reference program's straight line of 117 host operations, cut into six consecutive stretches.

  The buffer contents after a line of operations are a fold over the line, so the contents after a concatenation of two
  lines are the contents after the second, started from the contents after the first (`after_append`). The six stretches
  `seg1 … seg6` are @main's operations 0–20, 21–41, 42–62, 63–83, 84–101 and 102–116; their concatenation IS the program's
  list of operations (`ops_split`, an equation between two lists written out operation by operation). The cuts follow the
  data: the edge words and the per-node factor; the first product and the first per-edge factor; the first layer's
  output; the second product and the second per-edge factor; the second layer's aggregate plus bias; the log-softmax.
-/
import proofs.«156187_j27659589386355_2_alg».proof.Proof.RefRunPatched
import Idealize.ShloMosaic.Lib.StableHlo.Run

set_option maxRecDepth 16384

noncomputable section

namespace Cert.ReferenceIdeal.GcnRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The contents after a concatenation of two lines of operations are the contents after the second, started from the
    contents after the first. -/
theorem after_append (a b : List (HloOp τ sig (Elt F))) (V : Valuation τ sig (Elt F)) :
    after (a ++ b) V = after b (after a V) := by
  induction a generalizing V with
  | nil => rfl
  | cons op a ih => rw [List.cons_append, after_cons, after_cons, ih]

/-- Operations 0–20 of @main, in order. -/
abbrev seg1 : List (HloOp τ sig (Elt F)) :=
  [
    nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 21–41 of @main, in order. -/
abbrev seg2 : List (HloOp τ sig (Elt F)) :=
  [
    binary main_arg0 main_arg2 main_v15 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    unary main_v30 main_v31 (broadcastInDim S850000x1 ![0] bcast_S850000_S850000x1_0 : (⟨S850000, .f32⟩ : BufTy).Contents (Elt F) → (⟨S850000x1, .f32⟩ : BufTy).Contents (Elt F)) ]

/-- Operations 42–62 of @main, in order. -/
abbrev seg3 : List (HloOp τ sig (Elt F)) :=
  [
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v15 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v31 main_v39 (broadcastInDim S850000x256 ![0, 1] bcast_S850000x1_S850000x256_0_1 : (⟨S850000x1, .f32⟩ : BufTy).Contents (Elt F) → (⟨S850000x256, .f32⟩ : BufTy).Contents (Elt F)),
    binary main_v38 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf ]

/-- Operations 63–83 of @main, in order. -/
abbrev seg4 : List (HloOp τ sig (Elt F)) :=
  [
    binary main_v47 main_arg4 main_v48 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v56 (broadcastInDim S850000 ![] bcast_S_S850000 : (⟨S_, .i32⟩ : BufTy).Contents (Elt F) → (⟨S850000, .i32⟩ : BufTy).Contents (Elt F)),
    binary main_v6 main_v56 main_v57 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v58 (broadcastInDim S850000 ![] bcast_S_S850000 : (⟨S_, .i32⟩ : BufTy).Contents (Elt F) → (⟨S850000, .i32⟩ : BufTy).Contents (Elt F)),
    binary main_v6 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v55 main_v62 main_v63 (mulf : (⟨S850000, .f32⟩ : BufTy).Contents (Elt F) → (⟨S850000, .f32⟩ : BufTy).Contents (Elt F) → (⟨S850000, .f32⟩ : BufTy).Contents (Elt F)),
    unary main_v63 main_v64 (broadcastInDim S850000x1 ![0] bcast_S850000_S850000x1_0 : (⟨S850000, .f32⟩ : BufTy).Contents (Elt F) → (⟨S850000x1, .f32⟩ : BufTy).Contents (Elt F)) ]

/-- Operations 84–101 of @main, in order. -/
abbrev seg5 : List (HloOp τ sig (Elt F)) :=
  [
    nullary main_c_13 (constantI S_ 32 0#32),
    unary main_c_13 main_v65 (broadcastInDim S850000 ![] bcast_S_S850000 : (⟨S_, .i32⟩ : BufTy).Contents (Elt F) → (⟨S850000, .i32⟩ : BufTy).Contents (Elt F)),
    binary main_v3 main_v65 main_v66 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v67 (broadcastInDim S850000 ![] bcast_S_S850000 : (⟨S_, .i32⟩ : BufTy).Contents (Elt F) → (⟨S850000, .i32⟩ : BufTy).Contents (Elt F)),
    binary main_v3 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v48 main_v70 main_v71 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v64 main_v72 (broadcastInDim S850000x64 ![0, 1] bcast_S850000x1_S850000x64_0_1 : (⟨S850000x1, .f32⟩ : BufTy).Contents (Elt F) → (⟨S850000x64, .f32⟩ : BufTy).Contents (Elt F)),
    binary main_v71 main_v72 main_v73 (mulf : (⟨S850000x64, .f32⟩ : BufTy).Contents (Elt F) → (⟨S850000x64, .f32⟩ : BufTy).Contents (Elt F) → (⟨S850000x64, .f32⟩ : BufTy).Contents (Elt F)),
    nullary main_cst_15 (constant S_ .f32 0x00000000#32),
    unary main_cst_15 main_v74 (broadcastInDim S50000x64 ![] bcast_S_S50000x64 : (⟨S_, .f32⟩ : BufTy).Contents (Elt F) → (⟨S50000x64, .f32⟩ : BufTy).Contents (Elt F)),
    unary main_v6 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v77 (broadcastInDim S1x64 ![1] bcast_S64_S1x64_1 : (⟨S64, .f32⟩ : BufTy).Contents (Elt F) → (⟨S1x64, .f32⟩ : BufTy).Contents (Elt F)),
    unary main_v77 main_v78 (broadcastInDim S50000x64 ![0, 1] bcast_S1x64_S50000x64_0_1 : (⟨S1x64, .f32⟩ : BufTy).Contents (Elt F) → (⟨S50000x64, .f32⟩ : BufTy).Contents (Elt F)),
    binary main_v76 main_v78 main_v79 (addf : (⟨S50000x64, .f32⟩ : BufTy).Contents (Elt F) → (⟨S50000x64, .f32⟩ : BufTy).Contents (Elt F) → (⟨S50000x64, .f32⟩ : BufTy).Contents (Elt F)) ]

/-- Operations 102–116 of @main, in order. -/
abbrev seg6 : List (HloOp τ sig (Elt F)) :=
  [
    TRef.nullary (TRef.of (T := ⟨S_, .f32⟩) main_call2_cst) (constant S_ .f32 0xFF800000#32),
    TRef.binary (TRef.of (T := ⟨S50000x64, .f32⟩) main_v79) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v79) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v80) subf ]

set_option maxRecDepth 65536 in
/-- @main's operations are the six stretches in order. -/
theorem ops_split : (ops : List (HloOp τ sig (Elt F))) = seg1 ++ (seg2 ++ (seg3 ++ (seg4 ++ (seg5 ++ seg6)))) := rfl

end Cert.ReferenceIdeal.GcnRun

end
-- ==== Proof.RefRun.lean ====
/-
  The idealized reference program's run: every weakly fair execution terminates with the result array at the last stage
  function of the argument arrays, and the arguments unchanged.

  The program is a straight line of 117 host operations, each writing its own buffer from buffers written before it. The
  buffer contents after the line are a fold over the line, so the line is cut into six stretches and the contents after it
  are the contents after the sixth stretch, started from the contents after the fifth, and so on (`after_append`). For an
  ARBITRARY contents `V` at a stretch's entry, each value the stretch produces that a later stretch reads is the
  composition of the stretch's operations on the values it reads; when those are the earlier stage functions of the
  argument arrays, the new value is its own stage function (the `s<k>_<value>` lemmas, by unfolding the stretch one
  operation at a time). A buffer a stretch does not write keeps its contents (the `s<k>_keep_<buffer>` lemmas). Chaining the
  six stretches from the launch contents gives the result array at the last stage function (`value`), and the library's
  run of a straight line of host operations gives the program's run (`run`).

  The stages: source and destination words (the edge list's two rows, then one self loop per node); the per-node factor
  dinv (reciprocal square root of the in-degree where it is positive, zero elsewhere); per layer the product with the
  weights, the per-edge factor dinv[src]·dinv[dst], the rows gathered at the sources, scaled, summed into the
  destinations, plus the bias row; the positive part after the first layer; the log-softmax of each row after the second.
-/
import proofs.«156187_j27659589386355_2_alg».proof.Proof.RefReadPatched
import proofs.«156187_j27659589386355_2_alg».proof.Proof.RefStretches
import Idealize.ShloMosaic.Lib.StableHlo.Run

set_option maxRecDepth 16384

noncomputable section

namespace Cert.ReferenceIdeal.GcnRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## What each stretch produces, from any contents at its entry -/

/-- Contents carried to a buffer's own type and back are the contents. -/
theorem ofBuf_toBuf {T : BufTy} (x : TRef sig T) (v : T.Contents (Elt F)) : x.ofBuf (x.toBuf v) = v := by
  obtain ⟨r, rfl, h1, h2⟩ := x
  rfl

set_option maxHeartbeats 4000000 in
/-- After the first stretch the source words (the edge list's first row, then one self loop per node) are their stage. -/
theorem s1_v3 (V : Valuation τ sig (Elt F))
    :
    after seg1 V (Proc.devRef .tc main_v3) = val_main_v3 (V (Proc.devRef .tc main_arg1)) := by
  after_results
  rfl

set_option maxHeartbeats 4000000 in
/-- After the first stretch the destination words are their stage. -/
theorem s1_v6 (V : Valuation τ sig (Elt F))
    :
    after seg1 V (Proc.devRef .tc main_v6) = val_main_v6 (V (Proc.devRef .tc main_arg1)) := by
  after_results
  rfl

set_option maxHeartbeats 4000000 in
/-- After the first stretch the per-node factor (the reciprocal square root of the in-degree where positive, zero elsewhere) is its stage. -/
theorem s1_v14 (V : Valuation τ sig (Elt F))
    :
    after seg1 V (Proc.devRef .tc main_v14) = val_main_v14 (V (Proc.devRef .tc main_arg1)) := by
  after_results
  rfl

set_option maxHeartbeats 4000000 in
/-- The first layer's product is its stage. -/
theorem s2_v15 (V : Valuation τ sig (Elt F))
    :
    after seg2 V (Proc.devRef .tc main_v15) = val_main_v15 (V (Proc.devRef .tc main_arg0)) (V (Proc.devRef .tc main_arg2)) := by
  after_results
  rfl

set_option maxHeartbeats 4000000 in
/-- The first layer's per-edge factor, as a column, is its stage. -/
theorem s2_v31 (V : Valuation τ sig (Elt F)) (x1 : (⟨S2x800000, .i32⟩ : BufTy).Contents (Elt F))
    (h_v3 : V (Proc.devRef .tc main_v3) = val_main_v3 x1)
    (h_v6 : V (Proc.devRef .tc main_v6) = val_main_v6 x1)
    (h_v14 : V (Proc.devRef .tc main_v14) = val_main_v14 x1) :
    after seg2 V (Proc.devRef .tc main_v31) = val_main_v31 x1 := by
  after_results
  rw [h_v3, h_v6, h_v14]
  rfl

set_option maxHeartbeats 4000000 in
/-- The first layer's output is its stage. -/
theorem s3_v47 (V : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F))
    (h_v3 : V (Proc.devRef .tc main_v3) = val_main_v3 x1)
    (h_v6 : V (Proc.devRef .tc main_v6) = val_main_v6 x1)
    (h_v15 : V (Proc.devRef .tc main_v15) = val_main_v15 x0 x2)
    (h_v31 : V (Proc.devRef .tc main_v31) = val_main_v31 x1) :
    after seg3 V (Proc.devRef .tc main_v47) = val_main_v47 x0 x1 x2 (V (Proc.devRef .tc main_arg3)) := by
  after_results
  rw [h_v3, h_v6, h_v15, h_v31]
  rfl

set_option maxHeartbeats 4000000 in
/-- The second layer's product is its stage. -/
theorem s4_v48 (V : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F))
    (h_v47 : V (Proc.devRef .tc main_v47) = val_main_v47 x0 x1 x2 x3) :
    after seg4 V (Proc.devRef .tc main_v48) = val_main_v48 x0 x1 x2 x3 (V (Proc.devRef .tc main_arg4)) := by
  after_results
  rw [h_v47]
  rfl

set_option maxHeartbeats 4000000 in
/-- The second layer's per-edge factor, as a column, is its stage. -/
theorem s4_v64 (V : Valuation τ sig (Elt F)) (x1 : (⟨S2x800000, .i32⟩ : BufTy).Contents (Elt F))
    (h_v3 : V (Proc.devRef .tc main_v3) = val_main_v3 x1)
    (h_v6 : V (Proc.devRef .tc main_v6) = val_main_v6 x1)
    (h_v14 : V (Proc.devRef .tc main_v14) = val_main_v14 x1) :
    after seg4 V (Proc.devRef .tc main_v64) = val_main_v64 x1 := by
  after_results
  rw [h_v3, h_v6, h_v14]
  rfl

set_option maxHeartbeats 4000000 in
/-- The second layer's aggregate plus its bias row is its stage. -/
theorem s5_v79 (V : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S256x64, .f32⟩ : BufTy).Contents (Elt F))
    (h_v3 : V (Proc.devRef .tc main_v3) = val_main_v3 x1)
    (h_v6 : V (Proc.devRef .tc main_v6) = val_main_v6 x1)
    (h_v48 : V (Proc.devRef .tc main_v48) = val_main_v48 x0 x1 x2 x3 x4)
    (h_v64 : V (Proc.devRef .tc main_v64) = val_main_v64 x1) :
    after seg5 V (Proc.devRef .tc main_v79) = val_main_v79 x0 x1 x2 x3 x4 (V (Proc.devRef .tc main_arg5)) := by
  after_results
  rw [h_v3, h_v6, h_v48, h_v64]
  rfl

set_option maxHeartbeats 4000000 in
/-- The result, the log-softmax of each row, is its stage. -/
theorem s6_v80 (V : Valuation τ sig (Elt F)) (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S256x64, .f32⟩ : BufTy).Contents (Elt F)) (x5 : (⟨S64, .f32⟩ : BufTy).Contents (Elt F))
    (h_v79 : V (Proc.devRef .tc main_v79) = val_main_v79 x0 x1 x2 x3 x4 x5) :
    after seg6 V (Proc.devRef .tc main_v80) = val_main_v80 x0 x1 x2 x3 x4 x5 := by
  after_results
  rw [h_v79]
  simp only [ofBuf_toBuf]
  rfl

/-! ## What each stretch leaves alone -/

set_option maxHeartbeats 4000000 in
theorem s1_keep_arg0 (V : Valuation τ sig (Elt F)) : after seg1 V (Proc.devRef .tc main_arg0) = V (Proc.devRef .tc main_arg0) := by
  after_results
set_option maxHeartbeats 4000000 in
theorem s1_keep_arg2 (V : Valuation τ sig (Elt F)) : after seg1 V (Proc.devRef .tc main_arg2) = V (Proc.devRef .tc main_arg2) := by
  after_results
set_option maxHeartbeats 4000000 in
theorem s1_keep_arg3 (V : Valuation τ sig (Elt F)) : after seg1 V (Proc.devRef .tc main_arg3) = V (Proc.devRef .tc main_arg3) := by
  after_results
set_option maxHeartbeats 4000000 in
theorem s1_keep_arg4 (V : Valuation τ sig (Elt F)) : after seg1 V (Proc.devRef .tc main_arg4) = V (Proc.devRef .tc main_arg4) := by
  after_results
set_option maxHeartbeats 4000000 in
theorem s1_keep_arg5 (V : Valuation τ sig (Elt F)) : after seg1 V (Proc.devRef .tc main_arg5) = V (Proc.devRef .tc main_arg5) := by
  after_results

set_option maxHeartbeats 4000000 in
theorem s2_keep_v3 (V : Valuation τ sig (Elt F)) : after seg2 V (Proc.devRef .tc main_v3) = V (Proc.devRef .tc main_v3) := by
  after_results
set_option maxHeartbeats 4000000 in
theorem s2_keep_v6 (V : Valuation τ sig (Elt F)) : after seg2 V (Proc.devRef .tc main_v6) = V (Proc.devRef .tc main_v6) := by
  after_results
set_option maxHeartbeats 4000000 in
theorem s2_keep_v14 (V : Valuation τ sig (Elt F)) : after seg2 V (Proc.devRef .tc main_v14) = V (Proc.devRef .tc main_v14) := by
  after_results
set_option maxHeartbeats 4000000 in
theorem s2_keep_arg3 (V : Valuation τ sig (Elt F)) : after seg2 V (Proc.devRef .tc main_arg3) = V (Proc.devRef .tc main_arg3) := by
  after_results
set_option maxHeartbeats 4000000 in
theorem s2_keep_arg4 (V : Valuation τ sig (Elt F)) : after seg2 V (Proc.devRef .tc main_arg4) = V (Proc.devRef .tc main_arg4) := by
  after_results
set_option maxHeartbeats 4000000 in
theorem s2_keep_arg5 (V : Valuation τ sig (Elt F)) : after seg2 V (Proc.devRef .tc main_arg5) = V (Proc.devRef .tc main_arg5) := by
  after_results

set_option maxHeartbeats 4000000 in
theorem s3_keep_v3 (V : Valuation τ sig (Elt F)) : after seg3 V (Proc.devRef .tc main_v3) = V (Proc.devRef .tc main_v3) := by
  after_results
set_option maxHeartbeats 4000000 in
theorem s3_keep_v6 (V : Valuation τ sig (Elt F)) : after seg3 V (Proc.devRef .tc main_v6) = V (Proc.devRef .tc main_v6) := by
  after_results
set_option maxHeartbeats 4000000 in
theorem s3_keep_v14 (V : Valuation τ sig (Elt F)) : after seg3 V (Proc.devRef .tc main_v14) = V (Proc.devRef .tc main_v14) := by
  after_results
set_option maxHeartbeats 4000000 in
theorem s3_keep_arg4 (V : Valuation τ sig (Elt F)) : after seg3 V (Proc.devRef .tc main_arg4) = V (Proc.devRef .tc main_arg4) := by
  after_results
set_option maxHeartbeats 4000000 in
theorem s3_keep_arg5 (V : Valuation τ sig (Elt F)) : after seg3 V (Proc.devRef .tc main_arg5) = V (Proc.devRef .tc main_arg5) := by
  after_results

set_option maxHeartbeats 4000000 in
theorem s4_keep_v3 (V : Valuation τ sig (Elt F)) : after seg4 V (Proc.devRef .tc main_v3) = V (Proc.devRef .tc main_v3) := by
  after_results
set_option maxHeartbeats 4000000 in
theorem s4_keep_v6 (V : Valuation τ sig (Elt F)) : after seg4 V (Proc.devRef .tc main_v6) = V (Proc.devRef .tc main_v6) := by
  after_results
set_option maxHeartbeats 4000000 in
theorem s4_keep_arg5 (V : Valuation τ sig (Elt F)) : after seg4 V (Proc.devRef .tc main_arg5) = V (Proc.devRef .tc main_arg5) := by
  after_results

/-! ## The line -/

/-- After the whole line, from any contents `V`, the result buffer holds the last stage function of `V`'s argument arrays. -/
theorem value (V : Valuation τ sig (Elt F)) :
    after ops V (Proc.devRef .tc main_v80) = val_main_v80 (V (Proc.devRef .tc main_arg0)) (V (Proc.devRef .tc main_arg1))
      (V (Proc.devRef .tc main_arg2)) (V (Proc.devRef .tc main_arg3)) (V (Proc.devRef .tc main_arg4)) (V (Proc.devRef .tc main_arg5)) := by
  rw [ops_split, after_append, after_append, after_append, after_append, after_append]
  -- the arguments ride through the first four stretches
  have a0_1 := s1_keep_arg0 V
  have a2_1 := s1_keep_arg2 V
  have a3_1 := s1_keep_arg3 V
  have a4_1 := s1_keep_arg4 V
  have a5_1 := s1_keep_arg5 V
  have a3_2 := (s2_keep_arg3 (after seg1 V)).trans a3_1
  have a4_2 := (s2_keep_arg4 (after seg1 V)).trans a4_1
  have a5_2 := (s2_keep_arg5 (after seg1 V)).trans a5_1
  have a4_3 := (s3_keep_arg4 (after seg2 (after seg1 V))).trans a4_2
  have a5_3 := (s3_keep_arg5 (after seg2 (after seg1 V))).trans a5_2
  have a5_4 := (s4_keep_arg5 (after seg3 (after seg2 (after seg1 V)))).trans a5_3
  -- the edge words and the per-node factor, and their rides
  have v3_1 := s1_v3 V
  have v6_1 := s1_v6 V
  have v14_1 := s1_v14 V
  have v3_2 := (s2_keep_v3 (after seg1 V)).trans v3_1
  have v6_2 := (s2_keep_v6 (after seg1 V)).trans v6_1
  have v14_2 := (s2_keep_v14 (after seg1 V)).trans v14_1
  have v3_3 := (s3_keep_v3 (after seg2 (after seg1 V))).trans v3_2
  have v6_3 := (s3_keep_v6 (after seg2 (after seg1 V))).trans v6_2
  have v14_3 := (s3_keep_v14 (after seg2 (after seg1 V))).trans v14_2
  have v3_4 := (s4_keep_v3 (after seg3 (after seg2 (after seg1 V)))).trans v3_3
  have v6_4 := (s4_keep_v6 (after seg3 (after seg2 (after seg1 V)))).trans v6_3
  -- the first layer
  have v15_2 := s2_v15 (after seg1 V)
  rw [a0_1, a2_1] at v15_2
  have v31_2 := s2_v31 (after seg1 V) _ v3_1 v6_1 v14_1
  have v47_3 := s3_v47 (after seg2 (after seg1 V)) _ _ _ v3_2 v6_2 v15_2 v31_2
  rw [a3_2] at v47_3
  -- the second layer
  have v48_4 := s4_v48 (after seg3 (after seg2 (after seg1 V))) _ _ _ _ v47_3
  rw [a4_3] at v48_4
  have v64_4 := s4_v64 (after seg3 (after seg2 (after seg1 V))) _ v3_3 v6_3 v14_3
  have v79_5 := s5_v79 (after seg4 (after seg3 (after seg2 (after seg1 V)))) _ _ _ _ _ v3_4 v6_4 v48_4 v64_4
  rw [a5_4] at v79_5
  exact s6_v80 (after seg5 (after seg4 (after seg3 (after seg2 (after seg1 V))))) _ _ _ _ _ _ v79_5

set_option maxHeartbeats 40000000 in
/-- Every weakly fair execution of the reference from a memory with zero counters terminates without a fault, with the
    result array at the last stage function of the argument arrays as launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = val_main_v80 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v80).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.GcnRun

end
-- ==== Proof.LibEdgeIndex.lean ====
/-
  EDGE INDEXING: which operand element a gather along an edge list reads, and which operand element a scatter along an
  edge list lands on, for the three sets of dimension numbers that "table[edge]" (a row of a table, or an entry of a
  vector, per edge) and "sum per-edge values into nodes" lower to.

  Setting. A graph has N nodes and E edges; an edge list is an integer array of shape [E, 1] whose word at (e, 0) names
  a node. Write k(e) for that word read as a SIGNED integer.

  * Gather of rows. For a table of shape [N, C] and dimension numbers offset_dims = [1], collapsed_slice_dims = [0],
    start_index_map = [0], index_vector_dim = 1, slice_sizes = [1, C] and no batching axes, the result has shape [E, C]
    and its element (e, f) is the table's element (clamp k(e), f), where clamp k = min (max k 0) (N - 1): on the
    collapsed axis 0 the operand coordinate is the start index, clamped so that the slice of size 1 fits, and on axis 1
    the start is 0 and the coordinate is the result's offset coordinate f (`gather_rows_operandIdx`,
    `gather_rows_apply`).
  * Gather of entries. For a vector of shape [N] and dimension numbers offset_dims = [], collapsed_slice_dims = [0],
    start_index_map = [0], index_vector_dim = 1, slice_sizes = [1], the result has shape [E] and its element e is the
    vector's element clamp k(e) (`gather_entries_operandIdx`, `gather_entries_apply`).
  * Scatter into entries. For an operand of shape [N], updates of shape [E] and dimension numbers
    update_window_dims = [], inserted_window_dims = [0], scatter_dims_to_operand_dims = [0], index_vector_dim = 1,
    update e has start k(e) on axis 0 (NOT clamped) and window coordinate 0 (`scatter_entries_start`,
    `scatter_entries_window`); so it lands on operand element k(e) when 0 ≤ k(e) < N
    (`scatter_entries_resultIdx`) and is dropped otherwise (`scatter_entries_resultIdx_none`).

  The natural number (k).toNat is max k 0, so min (k).toNat (N - 1) is the clamp above.

  Every statement is about an ARBITRARY record of dimension numbers whose fields are given by equations; for a record
  written with literal fields each equation holds by `rfl`. The proofs replace the record by the literal one (the
  equations are substituted), evaluate the list lookups of the index functions on it, and identify the start-indices
  index "the result's batch coordinates with component 0 on the index vector's axis" with (e, 0) axis by axis.
-/
import Idealize.ShloMosaic.Lib.ValueIdx

open Idealize.ShloMosaic Idealize.ShloMosaic.ValueIdx

namespace Cert.LibEdgeIndex

/-! ## Scatter into the entries of a vector -/

section ScatterEntries
variable {N E w : Nat}

/-- The start on axis 0 of update `e` is the edge word `idx[e, 0]` read signed (no clamping), and its window
    coordinate there is 0 (axis 0 is an inserted window axis, so no update axis is a window axis of it). -/
theorem scatter_entries_start_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt ∧ d.window (ix1 e) 0 = 0 := by
  obtain ⟨uw, iw, sd, iv, wf⟩ := d
  simp only at h1 h2 h3 h4
  subst h1 h2 h3 h4
  generalize hd : (⟨[], [0], [0], 1, wf⟩ : ScatterDims ⟨1, ![N]⟩ ⟨2, ![E, 1]⟩ ⟨1, ![E]⟩) = d
  -- axis 0 is named by the scatter-dims-to-operand-dims map, at position 0
  have hmem : (0 : Fin 1) ∈ d.scatterDimsToOperandDims := by subst hd; exact List.mem_singleton.mpr rfl
  -- the scatter-indices index read for that component is (e, 0)
  have hsi : d.siIdx (ix1 e) ⟨List.idxOf (0 : Fin 1) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_⟩
  · unfold ScatterDims.start
    rw [dif_pos hmem, hsi]
  · -- the operand's kept axes are the axes of [N] outside [0]: none
    unfold ScatterDims.window
    rw [dif_neg]
    subst hd
    show (0 : Fin 1) ∉ (List.finRange 1).filter (· ∉ [0])
    decide

/-- The start on axis 0 of update `e`: the edge word read signed. -/
theorem scatter_entries_start (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt :=
  (scatter_entries_start_window d h1 h2 h3 h4 idx e).1

/-- The window coordinate on axis 0 of update `e`: zero. -/
theorem scatter_entries_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.window (ix1 e) 0 = 0 :=
  (scatter_entries_start_window d h1 h2 h3 h4 idx e).2

/-- AN EDGE WORD IN RANGE LANDS ON ITS NODE: when `0 ≤ idx[e, 0] < N` (read signed), update `e` lands on operand
    element `idx[e, 0]`. -/
theorem scatter_entries_resultIdx (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hlo : 0 ≤ (idx (ix2 e 0)).toInt) (hhi : (idx (ix2 e 0)).toInt < N) :
    d.resultIdx? (ix1 e) idx = some (ix1 ⟨(idx (ix2 e 0)).toInt.toNat, by omega⟩) := by
  obtain ⟨hst, hwin⟩ := scatter_entries_start_window d h1 h2 h3 h4 idx e
  -- the landing index is inside the operand on its one axis
  have hcond : ∀ a, 0 ≤ d.start (ix1 e) idx a + d.window (ix1 e) a ∧
      d.start (ix1 e) idx a + d.window (ix1 e) a < (⟨1, ![N]⟩ : Shape).size a := by
    intro a
    obtain rfl : a = 0 := Subsingleton.elim _ _
    rw [hst, hwin]
    show 0 ≤ (idx (ix2 e 0)).toInt + ((0 : Nat) : Int) ∧ (idx (ix2 e 0)).toInt + ((0 : Nat) : Int) < (N : Int)
    omega
  unfold ScatterDims.resultIdx?
  rw [dif_pos hcond]
  congr 1
  funext a
  obtain rfl : a = 0 := Subsingleton.elim _ _
  refine Fin.ext ?_
  show (d.start (ix1 e) idx 0 + d.window (ix1 e) 0).toNat = (idx (ix2 e 0)).toInt.toNat
  rw [hst, hwin]
  simp

/-- AN EDGE WORD OUT OF RANGE IS DROPPED: when `idx[e, 0]` (read signed) is negative or at least `N`, update `e`
    lands nowhere. -/
theorem scatter_entries_resultIdx_none (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hout : (idx (ix2 e 0)).toInt < 0 ∨ (N : Int) ≤ (idx (ix2 e 0)).toInt) :
    d.resultIdx? (ix1 e) idx = none := by
  obtain ⟨hst, hwin⟩ := scatter_entries_start_window d h1 h2 h3 h4 idx e
  unfold ScatterDims.resultIdx?
  rw [dif_neg]
  intro h
  have h0 := h 0
  rw [hst, hwin] at h0
  have h0' : 0 ≤ (idx (ix2 e 0)).toInt + ((0 : Nat) : Int) ∧ (idx (ix2 e 0)).toInt + ((0 : Nat) : Int) < (N : Int) := h0
  omega

end ScatterEntries

/-! ## Gather of the rows of a table -/

section GatherRows
variable {N E C w : Nat}

/-- THE ROW GATHER'S OPERAND INDEX: result element `(e, f)` reads the table at row `idx[e, 0]`, read signed and
    clamped into `[0, N − 1]`, and column `f`. -/
theorem gather_rows_operandIdx (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec ⟨2, ![E, 1]⟩ w) (e : Fin E) (f : Fin C) :
    d.operandIdx (ix2 e f) idx = ix2 ⟨min (idx (ix2 e 0)).toInt.toNat (N - 1), by omega⟩ f := by
  obtain ⟨od, cd, ob, sb, sm, iv, ss, wf⟩ := d
  simp only at h1 h2 h3 h4 h5 h6 h7
  subst h1 h2 h3 h4 h5 h6 h7
  generalize hd : (⟨[1], [0], [], [], [0], 1, ![1, C], wf⟩ : GatherDims ⟨2, ![N, C]⟩ ⟨2, ![E, 1]⟩ ⟨2, ![E, C]⟩) = d
  -- axis 0 is named by the start index map, at position 0
  have hmem : (0 : Fin 2) ∈ d.startIndexMap := by subst hd; exact List.mem_singleton.mpr rfl
  -- the start-indices index read for that component is (e, 0)
  have hsi : d.siIdx (ix2 e f) ⟨List.idxOf (0 : Fin 2) d.startIndexMap,
      List.idxOf_lt_length_iff.2 hmem⟩ = ix2 e 0 := by
    subst hd
    funext b; refine Fin.ext ?_
    match b with
    | ⟨0, _⟩ => rfl
    | ⟨1, _⟩ => rfl
  -- there is no batching axis
  have hob : ∀ a : Fin 2, a ∉ d.operandBatchingDims := by subst hd; exact fun _ => List.not_mem_nil
  -- axis 0: the start is the clamped edge word (size N, slice size 1); axis 1 is not in the start index map
  have hst0 : d.start (ix2 e f) idx 0 = min (idx (ix2 e 0)).toInt.toNat (N - 1) := by
    unfold GatherDims.start
    rw [dif_pos hmem, hsi]
    subst hd
    rfl
  have hst1 : d.start (ix2 e f) idx 1 = 0 := by
    unfold GatherDims.start
    rw [dif_neg]
    subst hd
    show (1 : Fin 2) ∉ [(0 : Fin 2)]
    decide
  -- axis 0 is collapsed: no offset; axis 1 is the one kept axis and reads the result's offset axis 1
  have hoff0 : d.offCoord (ix2 e f) 0 = 0 := by
    refine d.offCoord_eq_zero _ _ (fun h => ((d.mem_sKept _).mp h).1 ?_)
    subst hd
    exact List.mem_singleton.mpr rfl
  have hoff1 : d.offCoord (ix2 e f) 1 = f.val := by
    subst hd
    unfold GatherDims.offCoord
    rw [dif_pos]
    · rfl
    · show (1 : Fin 2) ∈ (List.finRange 2).filter (· ∉ [(0 : Fin 2)] ++ [])
      decide
  funext a
  refine Fin.ext ?_
  match a with
  | ⟨0, _⟩ =>
    show d.start (ix2 e f) idx 0 + d.batchCoord (ix2 e f) 0 + d.offCoord (ix2 e f) 0 = _
    rw [d.batchCoord_eq_zero _ _ (hob 0), hoff0, hst0]
    rfl
  | ⟨1, _⟩ =>
    show d.start (ix2 e f) idx 1 + d.batchCoord (ix2 e f) 1 + d.offCoord (ix2 e f) 1 = _
    rw [d.batchCoord_eq_zero _ _ (hob 1), hoff1, hst1]
    simp

/-- THE ROW GATHER READ AT `(e, f)`: the table at the clamped row and column `f`. -/
theorem gather_rows_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (f : Fin C) :
    Host.gather d x idx (ix2 e f) = x (ix2 ⟨min (idx (ix2 e 0)).toInt.toNat (N - 1), by omega⟩ f) := by
  unfold Host.gather
  rw [gather_rows_operandIdx hN d h1 h2 h3 h4 h5 h6 h7 idx e f]

end GatherRows

/-! ## Gather of the entries of a vector -/

section GatherEntries
variable {N E w : Nat}

/-- THE ENTRY GATHER'S OPERAND INDEX: result element `e` reads the vector at `idx[e, 0]`, read signed and clamped
    into `[0, N − 1]`. -/
theorem gather_entries_operandIdx (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec ⟨2, ![E, 1]⟩ w) (e : Fin E) :
    d.operandIdx (ix1 e) idx = ix1 ⟨min (idx (ix2 e 0)).toInt.toNat (N - 1), by omega⟩ := by
  obtain ⟨od, cd, ob, sb, sm, iv, ss, wf⟩ := d
  simp only at h1 h2 h3 h4 h5 h6 h7
  subst h1 h2 h3 h4 h5 h6 h7
  generalize hd : (⟨[], [0], [], [], [0], 1, ![1], wf⟩ : GatherDims ⟨1, ![N]⟩ ⟨2, ![E, 1]⟩ ⟨1, ![E]⟩) = d
  -- axis 0 is named by the start index map, at position 0
  have hmem : (0 : Fin 1) ∈ d.startIndexMap := by subst hd; exact List.mem_singleton.mpr rfl
  -- the start-indices index read for that component is (e, 0)
  have hsi : d.siIdx (ix1 e) ⟨List.idxOf (0 : Fin 1) d.startIndexMap,
      List.idxOf_lt_length_iff.2 hmem⟩ = ix2 e 0 := by
    subst hd
    funext b; refine Fin.ext ?_
    match b with
    | ⟨0, _⟩ => rfl
    | ⟨1, _⟩ => rfl
  -- no batching axis; the start is the clamped edge word (size N, slice size 1); axis 0 is collapsed: no offset
  have hob : (0 : Fin 1) ∉ d.operandBatchingDims := by subst hd; exact List.not_mem_nil
  have hst0 : d.start (ix1 e) idx 0 = min (idx (ix2 e 0)).toInt.toNat (N - 1) := by
    unfold GatherDims.start
    rw [dif_pos hmem, hsi]
    subst hd
    rfl
  have hoff0 : d.offCoord (ix1 e) 0 = 0 := by
    refine d.offCoord_eq_zero _ _ (fun h => ((d.mem_sKept _).mp h).1 ?_)
    subst hd
    exact List.mem_singleton.mpr rfl
  funext a
  obtain rfl : a = 0 := Subsingleton.elim _ _
  refine Fin.ext ?_
  show d.start (ix1 e) idx 0 + d.batchCoord (ix1 e) 0 + d.offCoord (ix1 e) 0 = _
  rw [d.batchCoord_eq_zero _ _ hob, hoff0, hst0]
  rfl

/-- THE ENTRY GATHER READ AT `e`: the vector at the clamped edge word. -/
theorem gather_entries_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  rw [gather_entries_operandIdx hN d h1 h2 h3 h4 h5 h6 h7 idx e]

end GatherEntries

end Cert.LibEdgeIndex
-- ==== Proof.LibEdgePerm.lean ====
/-
  SUMS OVER EDGES DO NOT DEPEND ON THE ORDER OF THE EDGE LIST.

  Setting. A graph has N nodes and E edges; an edge list is an integer array of shape [E, 1] whose word at (e, 0) names
  the node edge e arrives at. "Sum per-edge values into nodes" is the accumulating scatter: node n receives the sum of the
  values of the edges whose word, read signed, is n; an edge whose word names no node contributes nothing. At the ideal
  values (extended reals, exact addition) the result at an element is the operand's element plus the finite sum of the
  updates landing on it — a sum over a SET of update indices, with no order.

  * Scatter into rows. For an operand [N, C], updates [E, C] and dimension numbers update_window_dims = [1],
    inserted_window_dims = [0], scatter_dims_to_operand_dims = [0], index_vector_dim = 1, update (e, f) has start
    (word of e read signed, 0) and window coordinate (0, f) (`scatter_rows_start_window`). So where update (e, f) lands
    depends on the edge list only through the word of e: two edge lists that give e and e' the same word land (e, f) and
    (e', f) on the same element (`scatter_rows_resultIdx_congr`; `scatter_entries_resultIdx_congr` for an operand [N] with
    updates [E]).
  * Hence: if σ is a bijection of the edges, and one edge list and one family of updates are the other edge list and
    family read through σ (edge e of the first is edge σ e of the second), the two accumulating scatters into the same
    operand are equal (`hostScatterAdd_rows_perm`, `hostScatterAdd_entries_perm`): the sum over update indices is
    re-indexed along σ.

  Every statement is about ARBITRARY records of dimension numbers whose fields are given by equations; for a record
  written with literal fields each equation holds by `rfl`.
-/
import Idealize.ShloMosaic.Lib.ValueIdx
import Idealize.ShloMosaic.PureOps.Ideal
import proofs.«156187_j27659589386355_2_alg».proof.Proof.LibEdgeIndex

open Idealize.ShloMosaic Idealize.ShloMosaic.ValueIdx

namespace Cert.LibEdgePerm

/-! ## Where an update lands is a function of its start and window coordinates -/

/-- Two updates (of two scatters into one operand shape) whose starts and window coordinates agree on every axis land on
    the same element, or are both dropped. -/
theorem resultIdx?_congr {s si u : Shape} {w : Nat} (d d' : ScatterDims s si u) (j j' : u.Idx) (idx idx' : IVec si w)
    (hs : ∀ a, d.start j idx a = d'.start j' idx' a) (hw : ∀ a, d.window j a = d'.window j' a) :
    d.resultIdx? j idx = d'.resultIdx? j' idx' := by
  have hs' : d.start j idx = d'.start j' idx' := funext hs
  have hw' : d.window j = d'.window j' := funext hw
  unfold ScatterDims.resultIdx?
  simp only [hs', hw']

/-! ## Sums over a rank-1 index -/

/-- A rank-1 index is its one coordinate … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scatter into the rows of a table -/

section Rows
variable {N E C w : Nat}

/-- Update `(e, f)` of a row scatter: on axis 0 its start is the edge word `idx[e, 0]` read signed and its window
    coordinate 0 (axis 0 is an inserted window axis); on axis 1 its start is 0 (the index vector has one component, for
    axis 0) and its window coordinate is `f`. -/
theorem scatter_rows_start_window (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (idx : IVec ⟨2, ![E, 1]⟩ w) (e : Fin E) (f : Fin C) :
    d.start (ix2 e f) idx 0 = (idx (ix2 e 0)).toInt ∧ d.start (ix2 e f) idx 1 = 0
      ∧ d.window (ix2 e f) 0 = 0 ∧ d.window (ix2 e f) 1 = f.val := by
  obtain ⟨uw, iw, sd, iv, wf⟩ := d
  simp only at h1 h2 h3 h4
  subst h1 h2 h3 h4
  generalize hd : (⟨[1], [0], [0], 1, wf⟩ : ScatterDims ⟨2, ![N, C]⟩ ⟨2, ![E, 1]⟩ ⟨2, ![E, C]⟩) = d
  -- axis 0 is named by the scatter-dims-to-operand-dims map, at position 0
  have hmem : (0 : Fin 2) ∈ d.scatterDimsToOperandDims := by subst hd; exact List.mem_singleton.mpr rfl
  -- the scatter-indices index read for that component is (e, 0)
  have hsi : d.siIdx (ix2 e f) ⟨List.idxOf (0 : Fin 2) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_, ?_, ?_⟩
  · unfold ScatterDims.start
    rw [dif_pos hmem, hsi]
  · unfold ScatterDims.start
    rw [dif_neg]
    subst hd
    show (1 : Fin 2) ∉ [(0 : Fin 2)]
    decide
  · -- the operand's kept axes are the axes of [N, C] outside [0]: axis 1 only
    unfold ScatterDims.window
    rw [dif_neg]
    subst hd
    show (0 : Fin 2) ∉ (List.finRange 2).filter (· ∉ [(0 : Fin 2)])
    decide
  · subst hd
    unfold ScatterDims.window
    rw [dif_pos]
    · rfl
    · show (1 : Fin 2) ∈ (List.finRange 2).filter (· ∉ [(0 : Fin 2)])
      decide

/-- Two edge lists that give `e` and `e'` the same word land updates `(e, f)` and `(e', f)` on the same element. -/
theorem scatter_rows_resultIdx_congr (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (idx idx' : IVec ⟨2, ![E, 1]⟩ w) (e e' : Fin E) (f : Fin C) (h : idx (ix2 e 0) = idx' (ix2 e' 0)) :
    d.resultIdx? (ix2 e f) idx = d'.resultIdx? (ix2 e' f) idx' := by
  obtain ⟨s0, s1, w0, w1⟩ := scatter_rows_start_window d h1 h2 h3 h4 idx e f
  obtain ⟨s0', s1', w0', w1'⟩ := scatter_rows_start_window d' h1' h2' h3' h4' idx' e' f
  refine resultIdx?_congr d d' _ _ _ _ (fun a => ?_) (fun a => ?_)
  · match a with
    | ⟨0, _⟩ => exact s0.trans ((congrArg BitVec.toInt h).trans s0'.symm)
    | ⟨1, _⟩ => exact s1.trans s1'.symm
  · match a with
    | ⟨0, _⟩ => exact w0.trans w0'.symm
    | ⟨1, _⟩ => exact w1.trans w1'.symm

/-- RELABELLING THE EDGES DOES NOT CHANGE THE ROW SUMS: if `σ` is a bijection of the edges and the first edge list and
    updates are the second read through `σ`, the two accumulating scatters into `z` are equal. -/
theorem hostScatterAdd_rows_perm (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (σ : Fin E → Fin E) (hσ : Function.Bijective σ)
    (z : (⟨2, ![N, C]⟩ : Shape).Idx → EReal) (idx idx' : IVec ⟨2, ![E, 1]⟩ w)
    (upd upd' : (⟨2, ![E, C]⟩ : Shape).Idx → EReal)
    (hi : ∀ e, idx (ix2 e 0) = idx' (ix2 (σ e) 0)) (hu : ∀ e f, upd (ix2 e f) = upd' (ix2 (σ e) f)) :
    Ideal.hostScatterAdd d z idx upd = Ideal.hostScatterAdd d' z idx' upd' := by
  funext i
  unfold Ideal.hostScatterAdd
  refine congrArg (z i + ·) ?_
  rw [Finset.sum_filter, Finset.sum_filter, sum_idx2, sum_idx2]
  refine Eq.trans ?_ (hσ.sum_comp _)
  refine Finset.sum_congr rfl fun e _ => ?_
  refine Finset.sum_congr rfl fun f _ => ?_
  rw [scatter_rows_resultIdx_congr d d' h1 h2 h3 h4 h1' h2' h3' h4' idx idx' e (σ e) f (hi e), hu e f]

end Rows

/-! ## Scatter into the entries of a vector -/

section Entries
variable {N E w : Nat}

/-- Two edge lists that give `e` and `e'` the same word land updates `e` and `e'` on the same entry. -/
theorem scatter_entries_resultIdx_congr (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (idx idx' : IVec ⟨2, ![E, 1]⟩ w) (e e' : Fin E) (h : idx (ix2 e 0) = idx' (ix2 e' 0)) :
    d.resultIdx? (ix1 e) idx = d'.resultIdx? (ix1 e') idx' := by
  obtain ⟨s0, w0⟩ := Cert.LibEdgeIndex.scatter_entries_start_window d h1 h2 h3 h4 idx e
  obtain ⟨s0', w0'⟩ := Cert.LibEdgeIndex.scatter_entries_start_window d' h1' h2' h3' h4' idx' e'
  refine resultIdx?_congr d d' _ _ _ _ (fun a => ?_) (fun a => ?_)
  · obtain rfl : a = 0 := Subsingleton.elim _ _
    exact s0.trans ((congrArg BitVec.toInt h).trans s0'.symm)
  · obtain rfl : a = 0 := Subsingleton.elim _ _
    exact w0.trans w0'.symm

/-- RELABELLING THE EDGES DOES NOT CHANGE THE ENTRY SUMS. -/
theorem hostScatterAdd_entries_perm (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (σ : Fin E → Fin E) (hσ : Function.Bijective σ)
    (z : (⟨1, ![N]⟩ : Shape).Idx → EReal) (idx idx' : IVec ⟨2, ![E, 1]⟩ w)
    (upd upd' : (⟨1, ![E]⟩ : Shape).Idx → EReal)
    (hi : ∀ e, idx (ix2 e 0) = idx' (ix2 (σ e) 0)) (hu : ∀ e, upd (ix1 e) = upd' (ix1 (σ e))) :
    Ideal.hostScatterAdd d z idx upd = Ideal.hostScatterAdd d' z idx' upd' := by
  funext i
  unfold Ideal.hostScatterAdd
  refine congrArg (z i + ·) ?_
  rw [Finset.sum_filter, Finset.sum_filter, sum_idx1, sum_idx1]
  refine Eq.trans ?_ (hσ.sum_comp _)
  refine Finset.sum_congr rfl fun e _ => ?_
  rw [scatter_entries_resultIdx_congr d d' h1 h2 h3 h4 h1' h2' h3' h4' idx idx' e (σ e) (hi e), hu e]

end Entries

end Cert.LibEdgePerm
-- ==== Proof.LibSegmentFactor.lean ====
/-
  A FACTOR THAT DEPENDS ONLY ON THE NODE AN EDGE ARRIVES AT COMES OUT OF THE SUM OVER THE EDGES ARRIVING THERE.

  Setting. A graph has N nodes and E edges; an edge list is an integer array of shape [E, 1] whose word at (e, 0) names
  the node edge e arrives at. Write k(e) for that word read as a SIGNED integer. "Sum per-edge rows into nodes" is the
  accumulating scatter of rows: for an operand [N, C], updates [E, C] and dimension numbers update_window_dims = [1],
  inserted_window_dims = [0], scatter_dims_to_operand_dims = [0], index_vector_dim = 1, element (s, j) of the result is
  the operand's element plus the sum of the updates (e, j) with k(e) = s; an edge with k(e) outside [0, N) contributes
  nothing. At the ideal values the elements are extended reals and the sum is exact.

  * Distributing a nonnegative real over a finite sum. On the extended reals (a + b) · r = a · r + b · r holds for
    every a and b when r is a REAL number with 0 ≤ r. (It fails for the infinite factor: (2 + (-1)) · ⊤ = ⊤ but
    2 · ⊤ + (-1) · ⊤ = ⊤ + ⊥ = ⊥. It fails for a negative factor: (⊤ + ⊥) · (-1) = ⊥ · (-1) = ⊤ but
    ⊤ · (-1) + ⊥ · (-1) = ⊥ + ⊤ = ⊥.) Hence (∑ a i) · r = ∑ (a i · r) over every finite set (`sum_mul_coe_of_nonneg`).
  * Where an update lands. If update (e, f) of a row scatter lands on an element i, then 0 ≤ k(e) < N, the row of i is
    k(e) and the column of i is f (`scatter_rows_lands`).
  * THE LAW. Let the operand be zero, and let every update row e be multiplied by a factor δ(e) that is a function
    dv of the arrival node: δ(e) = dv(k(e)) whenever 0 ≤ k(e) < N, where every dv(s) is a nonnegative real. Then at
    every element (s, j) the scatter of the multiplied rows is the scatter of the rows times dv(s)
    (`hostScatterAdd_rows_factor`): every update landing on (s, j) has k(e) = s, so its factor is dv(s), and dv(s)
    distributes over the sum.
  * Such a factor. "x⁻¹ᐟ² where x > 0, and 0 elsewhere" is a nonnegative real for EVERY extended real x
    (`gated_rsqrt_nonneg_real`): for x = ⊥ or a real x ≤ 0 it is 0; for x = ⊤ it is the reciprocal square root of ⊤,
    which is 0; for a real x > 0 it is (√x)⁻¹.
  * Index normalisation "if word < 0 then word + n else word" leaves a word that is nonnegative (read signed) alone
    (`normalise_of_nonneg`).

  The statement about the record of dimension numbers is about an ARBITRARY record whose fields are given by
  equations; for a record written with literal fields each equation holds by `rfl`.
-/
import Idealize.ShloMosaic.Lib.ValueIdx
import Idealize.ShloMosaic.PureOps.Ideal
import proofs.«156187_j27659589386355_2_alg».proof.Proof.LibEdgeIndex
import proofs.«156187_j27659589386355_2_alg».proof.Proof.LibEdgePerm

open Idealize.ShloMosaic Idealize.ShloMosaic.ValueIdx

namespace Cert.LibSegmentFactor

/-! ## A nonnegative real factor distributes over a finite sum of extended reals -/

/-- A finite sum of extended reals times a nonnegative REAL factor is the sum of the products. -/
theorem sum_mul_coe_of_nonneg {ι : Type*} (s : Finset ι) (a : ι → EReal) (r : ℝ) (hr : 0 ≤ r) :
    (∑ i ∈ s, a i) * (r : EReal) = ∑ i ∈ s, a i * (r : EReal) := by
  classical
  induction s using Finset.induction_on with
  | empty => simp
  | insert i s hi ih =>
    -- (a i + ∑ s) · r = a i · r + (∑ s) · r because 0 ≤ r and r ≠ ⊤
    rw [Finset.sum_insert hi, Finset.sum_insert hi,
      EReal.right_distrib_of_nonneg_of_ne_top (EReal.coe_nonneg.mpr hr) (EReal.coe_ne_top r), ih]

/-! ## Where an update of a row scatter lands -/

section Rows
variable {N E C w : Nat}

/-- AN UPDATE THAT LANDS HAS ITS EDGE WORD IN RANGE AND LANDS ON (THAT WORD, ITS OWN COLUMN): if update `(e, f)` of a
    row scatter lands on element `i`, then the edge word `idx[e, 0]`, read signed, is in `[0, N)`, the row of `i` is
    that word and the column of `i` is `f`. -/
theorem scatter_rows_lands (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (idx : IVec ⟨2, ![E, 1]⟩ w) (e : Fin E) (f : Fin C) (i : (⟨2, ![N, C]⟩ : Shape).Idx)
    (h : d.resultIdx? (ix2 e f) idx = some i) :
    0 ≤ (idx (ix2 e 0)).toInt ∧ (idx (ix2 e 0)).toInt < N ∧ ((i 0).val : Int) = (idx (ix2 e 0)).toInt
      ∧ (i 1).val = f.val := by
  obtain ⟨s0, s1, w0, w1⟩ := Cert.LibEdgePerm.scatter_rows_start_window d h1 h2 h3 h4 idx e f
  unfold ScatterDims.resultIdx? at h
  by_cases hc : ∀ a, 0 ≤ d.start (ix2 e f) idx a + d.window (ix2 e f) a ∧
      d.start (ix2 e f) idx a + d.window (ix2 e f) a < (⟨2, ![N, C]⟩ : Shape).size a
  · -- the update lands: the landing index is start + window coordinate on each axis, inside the operand
    rw [dif_pos hc] at h
    have hi := Option.some.inj h
    subst hi
    have hc0 := hc 0
    rw [s0, w0] at hc0
    have hc0' : 0 ≤ (idx (ix2 e 0)).toInt + ((0 : Nat) : Int) ∧
        (idx (ix2 e 0)).toInt + ((0 : Nat) : Int) < (N : Int) := hc0
    refine ⟨by omega, by omega, ?_, ?_⟩
    · show (((d.start (ix2 e f) idx 0 + d.window (ix2 e f) 0).toNat : Nat) : Int) = (idx (ix2 e 0)).toInt
      rw [s0, w0]
      omega
    · show (d.start (ix2 e f) idx 1 + d.window (ix2 e f) 1).toNat = f.val
      rw [s1, w1]
      omega
  · -- the update is dropped: it lands nowhere
    rw [dif_neg hc] at h
    exact absurd h (by simp)

/-- THE LAW: A FACTOR OF THE ARRIVAL NODE COMES OUT OF THE NODE'S SUM. Into a zero operand, if every update row `e` is
    multiplied by `δ e`, and `δ e = dv (idx[e, 0])` whenever that word (read signed) is in `[0, N)`, with every
    `dv s` a nonnegative real, then element `(s, j)` of the scatter of the multiplied rows is element `(s, j)` of the
    scatter of the rows, times `dv s`. -/
theorem hostScatterAdd_rows_factor (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (z : (⟨2, ![N, C]⟩ : Shape).Idx → EReal) (hz : ∀ i, z i = 0) (idx : IVec ⟨2, ![E, 1]⟩ w)
    (updK updR : (⟨2, ![E, C]⟩ : Shape).Idx → EReal) (δ : Fin E → EReal) (dv : Fin N → EReal)
    (hdv : ∀ s, ∃ r : ℝ, 0 ≤ r ∧ dv s = (r : EReal))
    (hR : ∀ e f, updR (ix2 e f) = updK (ix2 e f) * δ e)
    (hδ : ∀ e (hlo : 0 ≤ (idx (ix2 e 0)).toInt) (hhi : (idx (ix2 e 0)).toInt < N),
      δ e = dv ⟨(idx (ix2 e 0)).toInt.toNat, by omega⟩)
    (s : Fin N) (j : Fin C) :
    Ideal.hostScatterAdd d z idx updR (ix2 s j) = Ideal.hostScatterAdd d z idx updK (ix2 s j) * dv s := by
  obtain ⟨r, hr, hdvs⟩ := hdv s
  unfold Ideal.hostScatterAdd
  -- the operand is zero on both sides; the real factor dv s distributes over the sum
  rw [hz, zero_add, zero_add, hdvs, sum_mul_coe_of_nonneg _ _ r hr]
  -- term by term over the updates landing on (s, j)
  refine Finset.sum_congr rfl fun k hk => ?_
  have hk2 := (Finset.mem_filter.mp hk).2
  obtain ⟨e, f, rfl⟩ : ∃ e f, k = ix2 e f := ⟨k 0, k 1, eq_ix2 k⟩
  -- such an update has its edge word in range and equal to s, so its factor is dv s
  obtain ⟨hlo, hhi, h0, _⟩ := scatter_rows_lands d h1 h2 h3 h4 idx e f (ix2 s j) hk2
  have h0' : (s.val : Int) = (idx (ix2 e 0)).toInt := h0
  have hds : dv ⟨(idx (ix2 e 0)).toInt.toNat, by omega⟩ = dv s := congrArg dv (Fin.ext (by
    show (idx (ix2 e 0)).toInt.toNat = s.val
    omega))
  rw [hR, hδ e hlo hhi, hds, hdvs]

end Rows

/-! ## A factor that is a nonnegative real whatever its argument -/

/-- "The reciprocal square root of `x` where `x > 0`, and `0` elsewhere" is a nonnegative real for every extended real `x`:
    `0` for `⊥` and for a real `x ≤ 0`, the reciprocal square root of `⊤` (which is `0`) for `⊤`, and `(√x)⁻¹` for a real
    `x > 0`. -/
theorem gated_rsqrt_nonneg_real (x : EReal) :
    ∃ r : ℝ, 0 ≤ r ∧ Scalar.select (Ideal.cmp .ogt x 0) (Ideal.rsqrt x) (0 : EReal) = (r : EReal) := by
  -- the mask is the order's strict comparison 0 < x
  have hsel : Scalar.select (Ideal.cmp .ogt x 0) (Ideal.rsqrt x) (0 : EReal)
      = if (0 : EReal) < x then Ideal.rsqrt x else 0 := by
    unfold Scalar.select Ideal.cmp
    by_cases hx : (0 : EReal) < x
    · simp [hx]
    · simp [hx]
  rw [hsel]
  induction x using EReal.rec with
  | bot => exact ⟨0, le_refl _, by simp⟩
  | top => exact ⟨0, le_refl _, by simp⟩
  | coe v =>
    by_cases hv : 0 < v
    · refine ⟨(Real.sqrt v)⁻¹, inv_nonneg.mpr (Real.sqrt_nonneg v), ?_⟩
      rw [if_pos (EReal.coe_pos.mpr hv), Ideal.rsqrt_coe, if_neg (not_lt.mpr hv.le), if_neg hv.ne']
    · refine ⟨0, le_refl _, ?_⟩
      rw [if_neg (fun h => hv (EReal.coe_pos.mp h))]
      rfl

/-! ## Index normalisation leaves a nonnegative word alone -/

/-- "If the word is negative (read signed) add `k`, else keep it" keeps a word that is nonnegative read signed. -/
theorem normalise_of_nonneg (wd : BitVec 32) (h : 0 ≤ wd.toInt) (k : BitVec 32) :
    Scalar.select (IntOp.cmpi .slt wd 0#32) (wd + k) wd = wd := by
  -- the signed comparison wd < 0 is false
  have hs : wd.slt 0#32 = false := by
    rw [BitVec.slt_eq_decide, BitVec.toInt_zero]
    exact decide_eq_false (by omega)
  unfold Scalar.select IntOp.cmpi
  simp [hs]

end Cert.LibSegmentFactor
-- ==== Proof.LibEdgeNorm.lean ====
/-
  SYMMETRIC NORMALISATION OF A GRAPH CONVOLUTION: THE ARRIVAL NODE'S FACTOR COMES OUT OF THE NODE'S SUM.

  Setting. A graph has N nodes and E edges; edge e leaves node src(e) and arrives at node dst(e). One layer of a graph
  convolution with symmetric normalisation sums into each node s, over the edges e arriving at s, the rows
  H[src(e)] · (dinv[src(e)] · dinv[dst(e)]), where H is an N × C table and dinv a vector of N nonnegative reals (the
  reciprocal square roots of the degrees, 0 where the degree is not positive). For every edge arriving at s the second
  factor dinv[dst(e)] is dinv[s], a nonnegative real, so it comes out of the node's sum:

      ∑_{e arrives at s} H[src(e)] · (dinv[src(e)] · dinv[dst(e)])  =  (∑_{e arrives at s} H[src(e)] · dinv[src(e)]) · dinv[s].

  In the host program the pieces are spelt as follows. "Arrives at s" is the accumulating scatter of rows into a zero
  N × C operand along the RAW arrival words dst, given as an [E] array of 32-bit words broadcast to an [E, 1] index
  array: an edge whose word, read signed, is outside [0, N) contributes nothing. The rows H[src(e)] and the entries
  dinv[·] are gathers along NORMALISED words ("if word < 0 then word + N else word"), which clamp the word into
  [0, N − 1]. The per-edge factor, an [E] array, reaches the [E, C] rows through two broadcasts [E] → [E, 1] → [E, C].

  * The two broadcasts read at an index: an [E] array broadcast to [E, 1] reads, at (e, u), its entry e
    (`bcast_e1_apply`); an [E, 1] array broadcast to [E, C] reads, at (e, f), its entry (e, 0) (`bcast_ec_apply`).
  * THE LAYER LAW (`segsum_dst_factor`): the identity displayed above, between the two scatters as the host program spells
    them, at every element (s, j); it holds with ANY rows in place of H[src(e)] and any per-edge factor in place of
    dinv[src(e)] (`segsum_dst_factor_rows`). It is the factor law for row scatters, with per-edge factor
    δ(e) = (the gather of dinv along the normalised arrival word of e) and node factor dv(s) = dinv[s]: an edge that lands
    has its raw arrival word k in [0, N); a nonnegative word is left alone by the normalisation (the hypothesis
    `hnorm`), and its clamp min (max k 0) (N − 1) is k itself; so δ(e) = dinv[k] = dv(k). The rest is
    a · (b · c) = (a · b) · c.
  * The entries of dinv are nonnegative reals: "the reciprocal square root of x where x > 0, else 0", as the host
    program spells it on an element (`dinv_elt_nonneg_real`) and on a whole array read at an index
    (`dinv_vec_nonneg_real`), is a nonnegative real for every extended real x.

  The records of dimension numbers are ARBITRARY records whose fields are given by equations; for a record written
  with literal fields each equation holds by `rfl`. The shape facts of the broadcasts are arbitrary proofs.
-/
import Idealize.ShloMosaic.Lib.ValueIdx
import Idealize.ShloMosaic.Lib.Pipeline.Value
import Idealize.ShloMosaic.PureOps.Ideal.Laws
import proofs.«156187_j27659589386355_2_alg».proof.Proof.LibEdgeIndex
import proofs.«156187_j27659589386355_2_alg».proof.Proof.LibEdgePerm
import proofs.«156187_j27659589386355_2_alg».proof.Proof.LibSegmentFactor

open Idealize.ShloMosaic Idealize.ShloMosaic.ValueIdx

namespace Cert.LibEdgeNorm

/-! ## The two broadcasts of a per-edge array, read at an index -/

/-- An `[E]` array broadcast to `[E, 1]` (operand axis 0 to result axis 0) reads, at `(e, u)`, its entry `e`. -/
theorem bcast_e1_apply {α : Type} {E : Nat} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) := by
  refine broadcastInDim_apply ![0] h v (ix2 e u) (ix1 e) fun a => ?_
  match a with
  | ⟨0, _⟩ =>
    -- when E = 1 the only coordinate is 0
    show e.val = if E = 1 then 0 else e.val
    split
    · have := e.isLt; omega
    · rfl

/-- An `[E, 1]` array broadcast to `[E, C]` (axis 0 to axis 0, the unit axis 1 stretched over axis 1) reads, at
    `(e, f)`, its entry `(e, 0)`. -/
theorem bcast_ec_apply {α : Type} {E C : Nat} (v : (⟨2, ![E, 1]⟩ : Shape).Idx → α)
    (h : (⟨2, ![E, 1]⟩ : Shape).BroadcastsInDim ⟨2, ![E, C]⟩ ![0, 1]) (e : Fin E) (f : Fin C) :
    broadcastInDim ⟨2, ![E, C]⟩ ![0, 1] h v (ix2 e f) = v (ix2 e (0 : Fin 1)) := by
  refine broadcastInDim_apply ![0, 1] h v (ix2 e f) (ix2 e (0 : Fin 1)) fun a => ?_
  match a with
  | ⟨0, _⟩ =>
    show e.val = if E = 1 then 0 else e.val
    split
    · have := e.isLt; omega
    · rfl
  | ⟨1, _⟩ => rfl

/-! ## The layer law -/

section Law
variable {N E C : Nat}

/-- THE LAW ON ARBITRARY ROWS. Into a zero `[N, C]` operand, along the raw arrival words `dst`: for ANY rows `G` and any
    per-edge factor `A`, the scatter of the rows `G[e] * (A[e] * dinv[dst e])` is, at `(s, j)`, the scatter of the rows
    `G[e] * A[e]` times `dinv[s]`, when every entry of `dinv` is a nonnegative real and the normalised arrival word of an
    edge is its raw word whenever that is nonnegative (read signed). `dinv[dst e]` is gathered along the normalised words
    `dstN`; the per-edge factor is broadcast `[E] → [E, 1] → [E, C]`. -/
theorem segsum_dst_factor_rows (hN : 0 < N)
    (dS : ScatterDims ⟨2, ![N, C]⟩ ⟨2, ![E, 1]⟩ ⟨2, ![E, C]⟩)
    (s1 : dS.updateWindowDims = [1]) (s2 : dS.insertedWindowDims = [0])
    (s3 : dS.scatterDimsToOperandDims = [0]) (s4 : dS.indexVectorDim = 1)
    (g1 : GatherDims ⟨1, ![N]⟩ ⟨2, ![E, 1]⟩ ⟨1, ![E]⟩)
    (e1 : g1.offsetDims = []) (e2 : g1.collapsedSliceDims = [0]) (e3 : g1.operandBatchingDims = [])
    (e4 : g1.startIndicesBatchingDims = []) (e5 : g1.startIndexMap = [0]) (e6 : g1.indexVectorDim = 1)
    (e7 : g1.sliceSizes = ![1])
    (hb1 : (⟨1, ![E]⟩ : Shape).BroadcastsInDim ⟨2, ![E, 1]⟩ ![0])
    (hb2 : (⟨2, ![E, 1]⟩ : Shape).BroadcastsInDim ⟨2, ![E, C]⟩ ![0, 1])
    (z : FVec Ideal ⟨2, ![N, C]⟩ .f32) (hz : ∀ i, z i = 0)
    (G : FVec Ideal ⟨2, ![E, C]⟩ .f32) (A : FVec Ideal ⟨1, ![E]⟩ .f32) (dinv : FVec Ideal ⟨1, ![N]⟩ .f32)
    (dstN dst : IVec ⟨1, ![E]⟩ 32)
    (hdinv : ∀ s : Fin N, ∃ r : ℝ, 0 ≤ r ∧ dinv (ix1 s) = (r : EReal))
    (hnorm : ∀ e : Fin E, 0 ≤ (dst (ix1 e)).toInt → dstN (ix1 e) = dst (ix1 e))
    (s : Fin N) (j : Fin C) :
    Ideal.hostScatterAdd dS z (broadcastInDim ⟨2, ![E, 1]⟩ ![0] hb1 dst)
        (mulf G (broadcastInDim ⟨2, ![E, C]⟩ ![0, 1] hb2 (broadcastInDim ⟨2, ![E, 1]⟩ ![0] hb1
          (mulf A (Host.gather g1 dinv (broadcastInDim ⟨2, ![E, 1]⟩ ![0] hb1 dstN)))))) (ix2 s j)
      = Ideal.hostScatterAdd dS z (broadcastInDim ⟨2, ![E, 1]⟩ ![0] hb1 dst)
          (mulf G (broadcastInDim ⟨2, ![E, C]⟩ ![0, 1] hb2 (broadcastInDim ⟨2, ![E, 1]⟩ ![0] hb1 A))) (ix2 s j)
        * dinv (ix1 s) := by
  -- the index array read at (e, 0) is the raw arrival word of e
  have hD : ∀ e : Fin E, broadcastInDim ⟨2, ![E, 1]⟩ ![0] hb1 dst (ix2 e 0) = dst (ix1 e) :=
    fun e => bcast_e1_apply dst hb1 e 0
  -- an edge whose raw arrival word k is in [0, N): its normalised word is k, the clamp of k is k, so the gathered
  -- factor is dinv[k]
  have hB : ∀ e : Fin E, 0 ≤ (dst (ix1 e)).toInt → ∀ hhi : (dst (ix1 e)).toInt < N,
      Host.gather g1 dinv (broadcastInDim ⟨2, ![E, 1]⟩ ![0] hb1 dstN) (ix1 e)
        = dinv (ix1 ⟨(dst (ix1 e)).toInt.toNat, by omega⟩) := by
    intro e hlo hhi
    have hDN : broadcastInDim ⟨2, ![E, 1]⟩ ![0] hb1 dstN (ix2 e 0) = dstN (ix1 e) := bcast_e1_apply dstN hb1 e 0
    have hn : dstN (ix1 e) = dst (ix1 e) := hnorm e hlo
    rw [Cert.LibEdgeIndex.gather_entries_apply hN g1 e1 e2 e3 e4 e5 e6 e7 dinv _ e]
    refine congrArg (fun q : Fin N => dinv (ix1 q)) (Fin.ext ?_)
    show min (broadcastInDim ⟨2, ![E, 1]⟩ ![0] hb1 dstN (ix2 e 0)).toInt.toNat (N - 1) = (dst (ix1 e)).toInt.toNat
    rw [hDN, hn]
    omega
  -- rows: G · (a · b) = (G · a) · b, the factor read through the two broadcasts
  have hR : ∀ (e : Fin E) (f : Fin C),
      mulf G (broadcastInDim ⟨2, ![E, C]⟩ ![0, 1] hb2 (broadcastInDim ⟨2, ![E, 1]⟩ ![0] hb1
          (mulf A (Host.gather g1 dinv (broadcastInDim ⟨2, ![E, 1]⟩ ![0] hb1 dstN))))) (ix2 e f)
        = mulf G (broadcastInDim ⟨2, ![E, C]⟩ ![0, 1] hb2 (broadcastInDim ⟨2, ![E, 1]⟩ ![0] hb1 A)) (ix2 e f)
          * Host.gather g1 dinv (broadcastInDim ⟨2, ![E, 1]⟩ ![0] hb1 dstN) (ix1 e) := by
    intro e f
    rw [mulf_apply, mulf_apply, bcast_ec_apply _ hb2 e f, bcast_e1_apply _ hb1 e 0, bcast_ec_apply _ hb2 e f,
      bcast_e1_apply _ hb1 e 0, mulf_apply]
    exact (mul_assoc _ _ _).symm
  -- name the two update arrays, the gathered factor and the index array; the factor law for row scatters then applies
  -- to them as they stand, with node factor dv s = dinv[s]
  generalize mulf G (broadcastInDim ⟨2, ![E, C]⟩ ![0, 1] hb2 (broadcastInDim ⟨2, ![E, 1]⟩ ![0] hb1
    (mulf A (Host.gather g1 dinv (broadcastInDim ⟨2, ![E, 1]⟩ ![0] hb1 dstN))))) = updR at hR ⊢
  generalize mulf G (broadcastInDim ⟨2, ![E, C]⟩ ![0, 1] hb2 (broadcastInDim ⟨2, ![E, 1]⟩ ![0] hb1 A)) = updK at hR ⊢
  generalize Host.gather g1 dinv (broadcastInDim ⟨2, ![E, 1]⟩ ![0] hb1 dstN) = B at hR hB
  generalize broadcastInDim ⟨2, ![E, 1]⟩ ![0] hb1 dst = idxD at hD ⊢
  refine Cert.LibSegmentFactor.hostScatterAdd_rows_factor dS s1 s2 s3 s4 z hz idxD updK updR
    (fun e => B (ix1 e)) (fun s => dinv (ix1 s)) hdinv hR (fun e hlo hhi => ?_) s j
  -- the word at (e, 0) of the index array is dst[e], in range by hypothesis
  have hlo' : 0 ≤ (dst (ix1 e)).toInt := by rw [← hD e]; exact hlo
  have hhi' : (dst (ix1 e)).toInt < N := by rw [← hD e]; exact hhi
  refine (hB e hlo' hhi').trans (congrArg (fun q : Fin N => dinv (ix1 q)) (Fin.ext ?_))
  show (dst (ix1 e)).toInt.toNat = (idxD (ix2 e 0)).toInt.toNat
  rw [hD e]

/-- At the ideal values the host's accumulating scatter is the exact one. -/
theorem scatterAdd_eq_ideal {s si su : Shape} {w : Nat} {φ : FTy} (d : ScatterDims s si su) (x : FVec Ideal s φ)
    (idx : IVec si w) (upd : FVec Ideal su φ) : Host.scatterAdd d x idx upd = Ideal.hostScatterAdd d x idx upd := rfl

/-- THE ARRIVAL NODE'S FACTOR COMES OUT OF THE NODE'S SUM, as the host program spells the two sides: the rows are
    `H[src e]` and the per-edge factor `dinv[src e]`, both gathered along the normalised words `srcN`. (The law holds for
    any rows and any per-edge factor, so nothing is asked of the row gather's dimension numbers; they are named only so
    that the statement has the program's shape.) -/
theorem segsum_dst_factor (hN : 0 < N)
    (dS : ScatterDims ⟨2, ![N, C]⟩ ⟨2, ![E, 1]⟩ ⟨2, ![E, C]⟩)
    (s1 : dS.updateWindowDims = [1]) (s2 : dS.insertedWindowDims = [0])
    (s3 : dS.scatterDimsToOperandDims = [0]) (s4 : dS.indexVectorDim = 1)
    (gR : GatherDims ⟨2, ![N, C]⟩ ⟨2, ![E, 1]⟩ ⟨2, ![E, C]⟩)
    (r1 : gR.offsetDims = [1]) (r2 : gR.collapsedSliceDims = [0]) (r3 : gR.operandBatchingDims = [])
    (r4 : gR.startIndicesBatchingDims = []) (r5 : gR.startIndexMap = [0]) (r6 : gR.indexVectorDim = 1)
    (r7 : gR.sliceSizes = ![1, C])
    (g1 : GatherDims ⟨1, ![N]⟩ ⟨2, ![E, 1]⟩ ⟨1, ![E]⟩)
    (e1 : g1.offsetDims = []) (e2 : g1.collapsedSliceDims = [0]) (e3 : g1.operandBatchingDims = [])
    (e4 : g1.startIndicesBatchingDims = []) (e5 : g1.startIndexMap = [0]) (e6 : g1.indexVectorDim = 1)
    (e7 : g1.sliceSizes = ![1])
    (hb1 : (⟨1, ![E]⟩ : Shape).BroadcastsInDim ⟨2, ![E, 1]⟩ ![0])
    (hb2 : (⟨2, ![E, 1]⟩ : Shape).BroadcastsInDim ⟨2, ![E, C]⟩ ![0, 1])
    (z : FVec Ideal ⟨2, ![N, C]⟩ .f32) (hz : ∀ i, z i = 0)
    (H : FVec Ideal ⟨2, ![N, C]⟩ .f32) (dinv : FVec Ideal ⟨1, ![N]⟩ .f32)
    (srcN dstN dst : IVec ⟨1, ![E]⟩ 32)
    (hdinv : ∀ s : Fin N, ∃ r : ℝ, 0 ≤ r ∧ dinv (ix1 s) = (r : EReal))
    (hnorm : ∀ e : Fin E, 0 ≤ (dst (ix1 e)).toInt → dstN (ix1 e) = dst (ix1 e))
    (s : Fin N) (j : Fin C) :
    Host.scatterAdd dS z (broadcastInDim ⟨2, ![E, 1]⟩ ![0] hb1 dst)
        (mulf (Host.gather gR H (broadcastInDim ⟨2, ![E, 1]⟩ ![0] hb1 srcN))
          (broadcastInDim ⟨2, ![E, C]⟩ ![0, 1] hb2 (broadcastInDim ⟨2, ![E, 1]⟩ ![0] hb1
            (mulf (Host.gather g1 dinv (broadcastInDim ⟨2, ![E, 1]⟩ ![0] hb1 srcN))
                  (Host.gather g1 dinv (broadcastInDim ⟨2, ![E, 1]⟩ ![0] hb1 dstN)))))) (ix2 s j)
      = Host.scatterAdd dS z (broadcastInDim ⟨2, ![E, 1]⟩ ![0] hb1 dst)
          (mulf (Host.gather gR H (broadcastInDim ⟨2, ![E, 1]⟩ ![0] hb1 srcN))
            (broadcastInDim ⟨2, ![E, C]⟩ ![0, 1] hb2 (broadcastInDim ⟨2, ![E, 1]⟩ ![0] hb1
              (Host.gather g1 dinv (broadcastInDim ⟨2, ![E, 1]⟩ ![0] hb1 srcN))))) (ix2 s j)
        * dinv (ix1 s) := by
  rw [scatterAdd_eq_ideal, scatterAdd_eq_ideal]
  -- the law asks nothing of the rows and of the per-edge factor: name them
  generalize Host.gather gR H (broadcastInDim ⟨2, ![E, 1]⟩ ![0] hb1 srcN) = G
  generalize Host.gather g1 dinv (broadcastInDim ⟨2, ![E, 1]⟩ ![0] hb1 srcN) = A
  exact segsum_dst_factor_rows hN dS s1 s2 s3 s4 g1 e1 e2 e3 e4 e5 e6 e7 hb1 hb2 z hz G A dinv dstN dst hdinv hnorm s j

end Law

/-! ## The entries of dinv are nonnegative reals -/

/-- "The reciprocal square root of `x` where `x > 0`, else `0`", as the host program spells it on one element (the zeros
    being the 32-bit pattern of the float `0`), is a nonnegative real for every extended real `x`. -/
theorem dinv_elt_nonneg_real (x : EReal) : ∃ r : ℝ, 0 ≤ r ∧
    Scalar.select (FloatOps.cmpf (F := Ideal) (φ := .f32) .ogt x (Ideal.ofBits .f32 0x00000000#32))
      (FloatOps.hostUnary (F := Ideal) (φ := .f32) .rsqrt x) (Ideal.ofBits .f32 0x00000000#32) = (r : EReal) := by
  rw [Ideal.ofBits_zero_f32]
  exact Cert.LibSegmentFactor.gated_rsqrt_nonneg_real x

/-- The same on a whole array read at an index: where `zeros` is zero everywhere,
    `select (deg > zeros) (rsqrt deg) zeros` is at every index a nonnegative real. -/
theorem dinv_vec_nonneg_real {s : Shape} (deg zeros : FVec Ideal s .f32) (hzero : ∀ i, zeros i = 0) (i : s.Idx) :
    ∃ r : ℝ, 0 ≤ r ∧ select (cmpf .ogt deg zeros) (Host.rsqrt deg) zeros i = (r : EReal) := by
  show ∃ r : ℝ, 0 ≤ r ∧ Scalar.select (Ideal.cmp .ogt (deg i) (zeros i)) (Ideal.rsqrt (deg i)) (zeros i) = (r : EReal)
  rw [hzero i]
  exact Cert.LibSegmentFactor.gated_rsqrt_nonneg_real (deg i)

end Cert.LibEdgeNorm
-- ==== Proof.Bridge.lean ====
/-
  THE BRIDGE: at the ideal values the reference's result is the kernel's function of the same arrays.

  Both programs compute a two-layer graph convolution with symmetric normalisation and a final log-softmax. With x the
  features, W₁, b₁, W₂, b₂ the weights and biases, src / dst the edge words (self loops appended) and dinv the per-node
  factor, the reference's layer sums into each node s the rows H[src e]·(dinv[src e]·dinv[dst e]) over the edges e arriving
  at s and adds the bias; the kernel sums the rows H[src e]·dinv[src e], and multiplies node s's sum by dinv[s] inside its
  epilogue kernel before adding the bias. The two agree entry by entry because every edge arriving at s has
  dinv[dst e] = dinv[s], and dinv[s] is a nonnegative real, which distributes over a finite sum of extended reals (the
  layer law, here instantiated at the reference's own expressions for 256 and for 64 columns: `law256`, `law64`). No
  finiteness of the inputs is used: dinv is a nonnegative real whatever the degree vector is.

  The rest is reading both sides at an index: the host's matrix products as sums over the contracted axis (`prod1_eq`,
  `prod2_eq`), the bias rows and the keep-dimensions columns (`bias256_apply`, `bias64_apply`, `col64_apply`), the host's
  log-softmax of a row — its maximum clamped below by −∞, the shifted entries, the logarithm of the sum of their
  exponentials — as the same function of the row's entries as the kernel's (`lsm_eq`), the first layer's output
  (`layer1_eq`) and the second layer's pre-softmax entries (`pre2_eq`).
-/
import proofs.«156187_j27659589386355_2_alg».proof.Proof.RefReadPatched
import proofs.«156187_j27659589386355_2_alg».proof.Proof.GcnSpec
import proofs.«156187_j27659589386355_2_alg».proof.Proof.GcnHost
import proofs.«156187_j27659589386355_2_alg».proof.Proof.LibRowOps
import proofs.«156187_j27659589386355_2_alg».proof.Proof.LibRowReduce
import proofs.«156187_j27659589386355_2_alg».proof.Proof.LibSegmentFactor
import proofs.«156187_j27659589386355_2_alg».proof.Proof.LibEdgeNorm
import Idealize.ShloMosaic.Lib.Pipeline.Value
import Idealize.ShloMosaic.Lib.ValueIdx
import Idealize.ShloMosaic.Lib.ValueLayout

set_option maxRecDepth 16384

noncomputable section

namespace Cert.Gcn.Bridge

open Cert.ReferenceIdeal Cert.ReferenceIdeal.Gen Cert.ReferenceIdeal.ReadP Cert.Gcn
open Idealize.ShloMosaic Idealize.ShloMosaic.ValueIdx

variable (x0 : FVec Ideal S50000x512 .f32) (x1 : IVec S2x800000 32) (x2 : FVec Ideal S512x256 .f32) (x3 : FVec Ideal S256 .f32)
  (x4 : FVec Ideal S256x64 .f32) (x5 : FVec Ideal S64 .f32)

/-! ## The two products -/

/-- The reference's first product is the product of the features by the first weights. -/
theorem prod1_eq : val_main_v15 (F := Ideal) x0 x2 = matProd 50000 512 256 x0 x2 := by
  funext i
  obtain ⟨r, j, rfl⟩ : ∃ (r : Fin 50000) (j : Fin 256), i = ix2 r j := ⟨i 0, i 1, eq_ix2 i⟩
  exact Cert.LibRowReduce.dotGeneral_plain_apply _ rfl none x0 x2 r j

/-- The reference's second product is the product of the first layer's output by the second weights. -/
theorem prod2_eq (h : FVec Ideal S50000x256 .f32) :
    Host.dotGeneral dot_S50000x256_S256x64_S50000x64_1_0_0_1_n_n none h x4 = matProd 50000 256 64 h x4 := by
  funext i
  obtain ⟨r, j, rfl⟩ : ∃ (r : Fin 50000) (j : Fin 64), i = ix2 r j := ⟨i 0, i 1, eq_ix2 i⟩
  exact Cert.LibRowReduce.dotGeneral_plain_apply _ rfl none h x4 r j

/-! ## Bias rows and columns read at an index -/

/-- A length-C bias broadcast to a 1×C row and then over N rows reads, at (s, j), its entry j (C = 256). -/
theorem bias256_apply (s : Fin 50000) (j : Fin 256) : val_main_v45 (F := Ideal) x3 (ix2 s j) = x3 (ix1 j) := by
  unfold val_main_v45 val_main_v44
  refine (broadcastInDim_apply _ _ _ (ix2 s j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

/-- The same for C = 64. -/
theorem bias64_apply (s : Fin 50000) (k : Fin 64) : val_main_v78 (F := Ideal) x5 (ix2 s k) = x5 (ix1 k) := by
  unfold val_main_v78 val_main_v77
  refine (broadcastInDim_apply _ _ _ (ix2 s k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

/-- A length-N vector broadcast to an N×1 column and then over 64 lanes reads, at (s, k), its entry s. -/
theorem col64_apply (v : FVec Ideal S50000 .f32) (s : Fin 50000) (k : Fin 64) :
    broadcastInDim S50000x64 ![0, 1] bcast_S50000x1_S50000x64_0_1 (broadcastInDim S50000x1 ![0] bcast_S50000_S50000x1_0 v) (ix2 s k) = v (ix1 s) := by
  refine (broadcastInDim_apply _ _ _ (ix2 s k) (ix2 s (0 : Fin 1)) fun a => ?_).trans
    (broadcastInDim_apply _ _ _ (ix2 s (0 : Fin 1)) (ix1 s) fun a => ?_)
  · match a with
    | ⟨0, _⟩ => rfl
    | ⟨1, _⟩ => rfl
  · match a with
    | ⟨0, _⟩ => rfl

/-! ## The layer law at the reference's spelling -/

/-- The layer law at the reference's own spelling, for 256 columns: the reference's aggregate of any table `H` (rows gathered
    at the normalised source words, scaled by dinv[src]·dinv[dst], summed into the destination words) is, entry by entry,
    the kernel's aggregate of `H` (scaled by dinv[src] only) times dinv at the row. -/
theorem law256 (H : FVec Ideal S50000x256 .f32) (s : Fin 50000) (j : Fin 256) :
    Host.scatterAdd scatter_S50000x256_S850000x1_S850000x256_1_0_0_1 (val_main_v41 (F := Ideal)) (val_main_v42 (F := Ideal) x1)
        (mulf (Host.gather gather_S50000x256_S850000x1_S850000x256_1_0_n_n_0_1_1256 H (val_main_v37 (F := Ideal) x1)) (val_main_v39 (F := Ideal) x1)) (ix2 s j)
      = agg256 H (val_main_v3 (F := Ideal) x1) (val_main_v6 (F := Ideal) x1) (val_main_v22 (F := Ideal) x1) (ix2 s j)
          * val_main_v14 (F := Ideal) x1 (ix1 s) := by
  -- the zero operand, dinv's entries, and the normalisation of a nonnegative word
  have hz : ∀ i, broadcastInDim S50000x256 ![] bcast_S_S50000x256 (constant (F := Ideal) S_ .f32 0x00000000#32) i = 0 :=
    fun i => Ideal.ofBits_zero_f32
  have hdinv : ∀ s : Fin 50000, ∃ r : ℝ, 0 ≤ r ∧ val_main_v14 (F := Ideal) x1 (ix1 s) = (r : EReal) := fun s =>
    Cert.LibEdgeNorm.dinv_vec_nonneg_real (val_main_v10 (F := Ideal) x1) (val_main_v11 (F := Ideal)) (fun i => Ideal.ofBits_zero_f32) (ix1 s)
  have hnorm : ∀ e : Fin 850000, 0 ≤ (val_main_v6 (F := Ideal) x1 (ix1 e)).toInt →
      normalise (val_main_v6 (F := Ideal) x1) (ix1 e) = val_main_v6 (F := Ideal) x1 (ix1 e) := fun e h =>
    Cert.LibSegmentFactor.normalise_of_nonneg _ h _
  -- the goal in the law's own spelling
  show Host.scatterAdd scatter_S50000x256_S850000x1_S850000x256_1_0_0_1
        (broadcastInDim S50000x256 ![] bcast_S_S50000x256 (constant (F := Ideal) S_ .f32 0x00000000#32))
        (broadcastInDim S850000x1 ![0] bcast_S850000_S850000x1_0 (val_main_v6 (F := Ideal) x1))
        (mulf (Host.gather gather_S50000x256_S850000x1_S850000x256_1_0_n_n_0_1_1256 H
            (broadcastInDim S850000x1 ![0] bcast_S850000_S850000x1_0 (normalise (val_main_v3 (F := Ideal) x1))))
          (broadcastInDim S850000x256 ![0, 1] bcast_S850000x1_S850000x256_0_1 (broadcastInDim S850000x1 ![0] bcast_S850000_S850000x1_0
            (mulf (Host.gather gather_S50000_S850000x1_S850000_n_0_n_n_0_1_1 (val_main_v14 (F := Ideal) x1)
                (broadcastInDim S850000x1 ![0] bcast_S850000_S850000x1_0 (normalise (val_main_v3 (F := Ideal) x1))))
              (Host.gather gather_S50000_S850000x1_S850000_n_0_n_n_0_1_1 (val_main_v14 (F := Ideal) x1)
                (broadcastInDim S850000x1 ![0] bcast_S850000_S850000x1_0 (normalise (val_main_v6 (F := Ideal) x1)))))))) (ix2 s j)
      = Host.scatterAdd scatter_S50000x256_S850000x1_S850000x256_1_0_0_1
        (broadcastInDim S50000x256 ![] bcast_S_S50000x256 (constant (F := Ideal) S_ .f32 0x00000000#32))
        (broadcastInDim S850000x1 ![0] bcast_S850000_S850000x1_0 (val_main_v6 (F := Ideal) x1))
        (mulf (Host.gather gather_S50000x256_S850000x1_S850000x256_1_0_n_n_0_1_1256 H
            (broadcastInDim S850000x1 ![0] bcast_S850000_S850000x1_0 (normalise (val_main_v3 (F := Ideal) x1))))
          (broadcastInDim S850000x256 ![0, 1] bcast_S850000x1_S850000x256_0_1 (broadcastInDim S850000x1 ![0] bcast_S850000_S850000x1_0
            (Host.gather gather_S50000_S850000x1_S850000_n_0_n_n_0_1_1 (val_main_v14 (F := Ideal) x1)
              (broadcastInDim S850000x1 ![0] bcast_S850000_S850000x1_0 (normalise (val_main_v3 (F := Ideal) x1))))))) (ix2 s j)
        * val_main_v14 (F := Ideal) x1 (ix1 s)
  -- every big array becomes a variable, then the law applies to variables
  generalize hdn : normalise (val_main_v6 (F := Ideal) x1) = dstN at hnorm ⊢
  generalize normalise (val_main_v3 (F := Ideal) x1) = srcN
  generalize val_main_v6 (F := Ideal) x1 = dst at hnorm ⊢
  generalize val_main_v14 (F := Ideal) x1 = dinv at hdinv ⊢
  generalize broadcastInDim S50000x256 ![] bcast_S_S50000x256 (constant (F := Ideal) S_ .f32 0x00000000#32) = z at hz ⊢
  exact Cert.LibEdgeNorm.segsum_dst_factor (by decide) scatter_S50000x256_S850000x1_S850000x256_1_0_0_1 rfl rfl rfl rfl
    gather_S50000x256_S850000x1_S850000x256_1_0_n_n_0_1_1256 rfl rfl rfl rfl rfl rfl rfl
    gather_S50000_S850000x1_S850000_n_0_n_n_0_1_1 rfl rfl rfl rfl rfl rfl rfl
    bcast_S850000_S850000x1_0 bcast_S850000x1_S850000x256_0_1 z hz H dinv srcN dstN dst hdinv hnorm s j

/-- The layer law at the reference's own spelling, for 64 columns: the reference's aggregate of any table `H` (rows gathered
    at the normalised source words, scaled by dinv[src]·dinv[dst], summed into the destination words) is, entry by entry,
    the kernel's aggregate of `H` (scaled by dinv[src] only) times dinv at the row. -/
theorem law64 (H : FVec Ideal S50000x64 .f32) (s : Fin 50000) (j : Fin 64) :
    Host.scatterAdd scatter_S50000x64_S850000x1_S850000x64_1_0_0_1 (val_main_v74 (F := Ideal)) (val_main_v75 (F := Ideal) x1)
        (mulf (Host.gather gather_S50000x64_S850000x1_S850000x64_1_0_n_n_0_1_164 H (val_main_v70 (F := Ideal) x1)) (val_main_v72 (F := Ideal) x1)) (ix2 s j)
      = agg64 H (val_main_v3 (F := Ideal) x1) (val_main_v6 (F := Ideal) x1) (val_main_v22 (F := Ideal) x1) (ix2 s j)
          * val_main_v14 (F := Ideal) x1 (ix1 s) := by
  -- the zero operand, dinv's entries, and the normalisation of a nonnegative word
  have hz : ∀ i, broadcastInDim S50000x64 ![] bcast_S_S50000x64 (constant (F := Ideal) S_ .f32 0x00000000#32) i = 0 :=
    fun i => Ideal.ofBits_zero_f32
  have hdinv : ∀ s : Fin 50000, ∃ r : ℝ, 0 ≤ r ∧ val_main_v14 (F := Ideal) x1 (ix1 s) = (r : EReal) := fun s =>
    Cert.LibEdgeNorm.dinv_vec_nonneg_real (val_main_v10 (F := Ideal) x1) (val_main_v11 (F := Ideal)) (fun i => Ideal.ofBits_zero_f32) (ix1 s)
  have hnorm : ∀ e : Fin 850000, 0 ≤ (val_main_v6 (F := Ideal) x1 (ix1 e)).toInt →
      normalise (val_main_v6 (F := Ideal) x1) (ix1 e) = val_main_v6 (F := Ideal) x1 (ix1 e) := fun e h =>
    Cert.LibSegmentFactor.normalise_of_nonneg _ h _
  -- the goal in the law's own spelling
  show Host.scatterAdd scatter_S50000x64_S850000x1_S850000x64_1_0_0_1
        (broadcastInDim S50000x64 ![] bcast_S_S50000x64 (constant (F := Ideal) S_ .f32 0x00000000#32))
        (broadcastInDim S850000x1 ![0] bcast_S850000_S850000x1_0 (val_main_v6 (F := Ideal) x1))
        (mulf (Host.gather gather_S50000x64_S850000x1_S850000x64_1_0_n_n_0_1_164 H
            (broadcastInDim S850000x1 ![0] bcast_S850000_S850000x1_0 (normalise (val_main_v3 (F := Ideal) x1))))
          (broadcastInDim S850000x64 ![0, 1] bcast_S850000x1_S850000x64_0_1 (broadcastInDim S850000x1 ![0] bcast_S850000_S850000x1_0
            (mulf (Host.gather gather_S50000_S850000x1_S850000_n_0_n_n_0_1_1 (val_main_v14 (F := Ideal) x1)
                (broadcastInDim S850000x1 ![0] bcast_S850000_S850000x1_0 (normalise (val_main_v3 (F := Ideal) x1))))
              (Host.gather gather_S50000_S850000x1_S850000_n_0_n_n_0_1_1 (val_main_v14 (F := Ideal) x1)
                (broadcastInDim S850000x1 ![0] bcast_S850000_S850000x1_0 (normalise (val_main_v6 (F := Ideal) x1)))))))) (ix2 s j)
      = Host.scatterAdd scatter_S50000x64_S850000x1_S850000x64_1_0_0_1
        (broadcastInDim S50000x64 ![] bcast_S_S50000x64 (constant (F := Ideal) S_ .f32 0x00000000#32))
        (broadcastInDim S850000x1 ![0] bcast_S850000_S850000x1_0 (val_main_v6 (F := Ideal) x1))
        (mulf (Host.gather gather_S50000x64_S850000x1_S850000x64_1_0_n_n_0_1_164 H
            (broadcastInDim S850000x1 ![0] bcast_S850000_S850000x1_0 (normalise (val_main_v3 (F := Ideal) x1))))
          (broadcastInDim S850000x64 ![0, 1] bcast_S850000x1_S850000x64_0_1 (broadcastInDim S850000x1 ![0] bcast_S850000_S850000x1_0
            (Host.gather gather_S50000_S850000x1_S850000_n_0_n_n_0_1_1 (val_main_v14 (F := Ideal) x1)
              (broadcastInDim S850000x1 ![0] bcast_S850000_S850000x1_0 (normalise (val_main_v3 (F := Ideal) x1))))))) (ix2 s j)
        * val_main_v14 (F := Ideal) x1 (ix1 s)
  -- every big array becomes a variable, then the law applies to variables
  generalize hdn : normalise (val_main_v6 (F := Ideal) x1) = dstN at hnorm ⊢
  generalize normalise (val_main_v3 (F := Ideal) x1) = srcN
  generalize val_main_v6 (F := Ideal) x1 = dst at hnorm ⊢
  generalize val_main_v14 (F := Ideal) x1 = dinv at hdinv ⊢
  generalize broadcastInDim S50000x64 ![] bcast_S_S50000x64 (constant (F := Ideal) S_ .f32 0x00000000#32) = z at hz ⊢
  exact Cert.LibEdgeNorm.segsum_dst_factor (by decide) scatter_S50000x64_S850000x1_S850000x64_1_0_0_1 rfl rfl rfl rfl
    gather_S50000x64_S850000x1_S850000x64_1_0_n_n_0_1_164 rfl rfl rfl rfl rfl rfl rfl
    gather_S50000_S850000x1_S850000_n_0_n_n_0_1_1 rfl rfl rfl rfl rfl rfl rfl
    bcast_S850000_S850000x1_0 bcast_S850000x1_S850000x64_0_1 z hz H dinv srcN dstN dst hdinv hnorm s j

/-! ## The log-softmax rows -/

/-- The host's exponential and logarithm at an index are the exponential and the logarithm of the entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The reference's row maximum at row s, before clamping. -/
theorem rowmax0_eq (s : Fin 50000) :
    val_main_call2_v0 (F := Ideal) x0 x1 x2 x3 x4 x5 (ix1 s) = Finset.univ.sup fun k : Fin 64 => val_main_v79 (F := Ideal) x0 x1 x2 x3 x4 x5 (ix2 s k) := by
  unfold val_main_call2_v0 val_main_call2_cst
  exact Cert.LibRowReduce.hostRowMax_apply (val_main_v79 (F := Ideal) x0 x1 x2 x3 x4 x5) reducesTo_S50000x64_S50000_d1 h_S_ s

/-- The −∞ the maximum is clamped against. -/
theorem negInf_eq (s : Fin 50000) : val_main_call2_v1 (F := Ideal) (ix1 s) = Ideal.ofBits .f32 0xFF800000#32 := by
  unfold val_main_call2_v1 val_main_call2_cst_0
  rfl

/-- The reference's clamped row maximum at row s. -/
theorem rowmax_eq (s : Fin 50000) : val_main_call2_v2 (F := Ideal) x0 x1 x2 x3 x4 x5 (ix1 s) = max (Ideal.ofBits .f32 0xFF800000#32) (Finset.univ.sup fun k : Fin 64 => val_main_v79 (F := Ideal) x0 x1 x2 x3 x4 x5 (ix2 s k)) := by
  unfold val_main_call2_v2
  rw [maximumf_apply, rowmax0_eq, negInf_eq]

/-- The reference's shifted entry at (s, k): the entry minus the row's clamped maximum. -/
theorem shift_eq (s : Fin 50000) (k : Fin 64) :
    val_main_call2_v5 (F := Ideal) x0 x1 x2 x3 x4 x5 (ix2 s k) = val_main_v79 (F := Ideal) x0 x1 x2 x3 x4 x5 (ix2 s k) - max (Ideal.ofBits .f32 0xFF800000#32) (Finset.univ.sup fun k' : Fin 64 => val_main_v79 (F := Ideal) x0 x1 x2 x3 x4 x5 (ix2 s k')) := by
  have h4 : val_main_call2_v4 (F := Ideal) x0 x1 x2 x3 x4 x5 (ix2 s k) = val_main_call2_v2 (F := Ideal) x0 x1 x2 x3 x4 x5 (ix1 s) := by
    unfold val_main_call2_v4 val_main_call2_v3
    exact col64_apply _ s k
  unfold val_main_call2_v5
  rw [subf_apply, h4, rowmax_eq]

/-- The reference's row sum of exponentials of the shifted entries, at row s. -/
theorem expsum_eq (s : Fin 50000) :
    val_main_call2_v7 (F := Ideal) x0 x1 x2 x3 x4 x5 (ix1 s) = ∑ k : Fin 64, Ideal.exp (val_main_v79 (F := Ideal) x0 x1 x2 x3 x4 x5 (ix2 s k) - max (Ideal.ofBits .f32 0xFF800000#32) (Finset.univ.sup fun k' : Fin 64 => val_main_v79 (F := Ideal) x0 x1 x2 x3 x4 x5 (ix2 s k'))) := by
  unfold val_main_call2_v7 val_main_call2_v6 val_main_call2_cst_1
  refine (Cert.LibRowReduce.hostRowSum_apply _ reducesTo_S50000x64_S50000_d1 h_S_ s).trans (Finset.sum_congr rfl fun k _ => ?_)
  rw [hostExp_apply, shift_eq]

/-- The reference's logarithm column broadcast over the lanes, at (s, q). -/
theorem logcol_eq (s : Fin 50000) (q : Fin 64) :
    val_main_call2_v10 (F := Ideal) x0 x1 x2 x3 x4 x5 (ix2 s q)
      = Ideal.log (∑ k : Fin 64, Ideal.exp (val_main_v79 (F := Ideal) x0 x1 x2 x3 x4 x5 (ix2 s k) - max (Ideal.ofBits .f32 0xFF800000#32) (Finset.univ.sup fun k' : Fin 64 => val_main_v79 (F := Ideal) x0 x1 x2 x3 x4 x5 (ix2 s k')))) := by
  unfold val_main_call2_v10 val_main_call2_v9 val_main_call2_v8
  refine (broadcastInDim_apply _ _ _ (ix2 s q) (ix2 s (0 : Fin 1)) fun a => ?_).trans ?_
  · match a with
    | ⟨0, _⟩ => rfl
    | ⟨1, _⟩ => rfl
  rw [hostLog_apply]
  refine congrArg Ideal.log ((broadcastInDim_apply _ _ _ (ix2 s (0 : Fin 1)) (ix1 s) fun a => ?_).trans (expsum_eq x0 x1 x2 x3 x4 x5 s))
  match a with
  | ⟨0, _⟩ => rfl

/-- The reference's result at (s, q) is the log-softmax of row s of its pre-softmax array, at lane q. -/
theorem lsm_eq (s : Fin 50000) (q : Fin 64) :
    val_main_v80 (F := Ideal) x0 x1 x2 x3 x4 x5 (ix2 s q)
      = lsmRow (fun k : Fin 64 => val_main_v79 (F := Ideal) x0 x1 x2 x3 x4 x5 (ix2 s k)) q := by
  unfold val_main_v80
  rw [subf_apply, shift_eq, logcol_eq]
  rfl

/-! ## The specification functions at an index -/

theorem scaleBiasRelu_ix2 (N C : Nat) (a : (⟨2, ![N, C]⟩ : Shape).Idx → EReal) (d : (⟨2, ![N, 1]⟩ : Shape).Idx → EReal)
    (b : (⟨2, ![1, C]⟩ : Shape).Idx → EReal) (s : Fin N) (j : Fin C) :
    scaleBiasRelu N C a d b (ix2 s j) = max (a (ix2 s j) * d (ix2 s (0 : Fin 1)) + b (ix2 (0 : Fin 1) j)) (Ideal.ofBits .f32 0x00000000#32) := rfl

theorem scaleBiasLsm_ix2 (N C : Nat) (a : (⟨2, ![N, C]⟩ : Shape).Idx → EReal) (d : (⟨2, ![N, 1]⟩ : Shape).Idx → EReal)
    (b : (⟨2, ![1, C]⟩ : Shape).Idx → EReal) (s : Fin N) (q : Fin C) :
    scaleBiasLsm N C a d b (ix2 s q) = lsmRow (fun k : Fin C => a (ix2 s k) * d (ix2 s (0 : Fin 1)) + b (ix2 (0 : Fin 1) k)) q := rfl

/-! ## The first layer -/

/-- The zero the positive part is taken against. -/
theorem zero256_apply (i : S50000x256.Idx) : val_main_call1_v0 (F := Ideal) i = Ideal.ofBits .f32 0x00000000#32 := by
  unfold val_main_call1_v0 val_main_call1_cst
  rfl

/-- The reference's first layer output is the kernel's: the positive part of (the kernel's first aggregate)·dinv + b₁. -/
theorem layer1_eq (hD : S50000.ShapeCasts S50000x1) (hB1 : S256.ShapeCasts S1x256) :
    val_main_v47 (F := Ideal) x0 x1 x2 x3
      = scaleBiasRelu 50000 256 (agg256 (matProd 50000 512 256 x0 x2) (val_main_v3 (F := Ideal) x1) (val_main_v6 (F := Ideal) x1) (val_main_v22 (F := Ideal) x1))
          (shapeCast S50000x1 (val_main_v14 (F := Ideal) x1) hD) (shapeCast S1x256 x3 hB1) := by
  funext i
  obtain ⟨s, j, rfl⟩ : ∃ (s : Fin 50000) (j : Fin 256), i = ix2 s j := ⟨i 0, i 1, eq_ix2 i⟩
  rw [scaleBiasRelu_ix2, Cert.LibRowOps.shapeCast_a_a1_apply, shapeCast_a_1a_apply]
  unfold val_main_v47
  rw [maximumf_apply, zero256_apply]
  unfold val_main_v46
  rw [addf_apply, bias256_apply]
  unfold val_main_v43 val_main_v40 val_main_v38
  rw [law256, prod1_eq]

/-! ## The second layer before the softmax -/

/-- The reference's pre-softmax entry at (s, k): (the kernel's second aggregate of the reference's second product)·dinv + b₂. -/
theorem pre2_eq (s : Fin 50000) (k : Fin 64) :
    val_main_v79 (F := Ideal) x0 x1 x2 x3 x4 x5 (ix2 s k)
      = agg64 (val_main_v48 (F := Ideal) x0 x1 x2 x3 x4) (val_main_v3 (F := Ideal) x1) (val_main_v6 (F := Ideal) x1) (val_main_v22 (F := Ideal) x1) (ix2 s k) * val_main_v14 (F := Ideal) x1 (ix1 s) + x5 (ix1 k) := by
  unfold val_main_v79
  rw [addf_apply, bias64_apply]
  unfold val_main_v76 val_main_v73 val_main_v71
  rw [law64]

/-! ## The two programs' results -/

/-- THE BRIDGE: the reference's last stage is the kernel's function of the same arrays — the log-softmax of each row of
    agg₂·dinv + b₂, with agg₂ the kernel's aggregate of relu(agg₁·dinv + b₁)·W₂ and agg₁ the kernel's aggregate of x·W₁. -/
theorem bridge (hD : S50000.ShapeCasts S50000x1) (hB1 : S256.ShapeCasts S1x256) (hB2 : S64.ShapeCasts S1x64) :
    val_main_v80 (F := Ideal) x0 x1 x2 x3 x4 x5
      = scaleBiasLsm 50000 64
          (agg64 (matProd 50000 256 64 (scaleBiasRelu 50000 256 (agg256 (matProd 50000 512 256 x0 x2) (val_main_v3 (F := Ideal) x1) (val_main_v6 (F := Ideal) x1) (val_main_v22 (F := Ideal) x1))
          (shapeCast S50000x1 (val_main_v14 (F := Ideal) x1) hD) (shapeCast S1x256 x3 hB1)) x4) (val_main_v3 (F := Ideal) x1) (val_main_v6 (F := Ideal) x1) (val_main_v22 (F := Ideal) x1))
          (shapeCast S50000x1 (val_main_v14 (F := Ideal) x1) hD) (shapeCast S1x64 x5 hB2) := by
  funext i
  obtain ⟨s, q, rfl⟩ : ∃ (s : Fin 50000) (q : Fin 64), i = ix2 s q := ⟨i 0, i 1, eq_ix2 i⟩
  rw [lsm_eq, scaleBiasLsm_ix2]
  refine congrArg (fun f => lsmRow f q) (funext fun k => ?_)
  rw [pre2_eq, Cert.LibRowOps.shapeCast_a_a1_apply, shapeCast_a_1a_apply]
  unfold val_main_v48
  rw [prod2_eq, layer1_eq x0 x1 x2 x3 hD hB1]

end Cert.Gcn.Bridge
end
-- ==== Proof.lean ====
/-
  The proof of `Cert.Claim`: the kernel (a two-layer graph convolution with symmetric normalisation and a final
  log-softmax, its two matrix products and its two epilogues as pipelined kernel regions, the gathers and segment sums on
  the host) against its plain reference, on the extended reals.

  * The three frames. The word-level kernel's and the idealized kernel's are the generated frame certificates. The
    reference has no kernel region: its frame is its run (Proof/RefRun.lean) with the result forgotten.
  * `preserves`: the ideal pass rewrote no operation, so there is nothing to state.
  * `algebraic`. The idealized kernel's run ends with its result array at the last boundary's contents
    (Proof/KernelRun.lean), which are one function `kernelOut` of the launch arrays (Proof/KernelValue.lean, over the four
    regions' whole-array functions of Proof/KernelProducts.lean and Proof/KernelEpilogues.lean). The reference's run ends
    with its result at its last stage function of the launch arrays (Proof/RefRun.lean). From memories agreeing on the
    arguments the two are the same function (Proof/Bridge.lean): the kernel multiplies each node's aggregate by dinv[s]
    after summing H[src e]·dinv[src e] over the edges arriving at s, the reference sums H[src e]·(dinv[src e]·dinv[dst e]),
    and a nonnegative real factor distributes over a finite sum of extended reals. The precondition is not used: dinv
    is a nonnegative real for every degree vector, and nothing else needs finiteness.
-/
import proofs.«156187_j27659589386355_2_alg».proof.Defs
import proofs.«156187_j27659589386355_2_alg».proof.Proof.Gen.Kernel
import proofs.«156187_j27659589386355_2_alg».proof.Proof.Gen.Kernel.Frame
import proofs.«156187_j27659589386355_2_alg».proof.Proof.Gen.KernelIdeal
import proofs.«156187_j27659589386355_2_alg».proof.Proof.Gen.KernelIdeal.Frame
import proofs.«156187_j27659589386355_2_alg».proof.Proof.Gen.ReferenceIdeal
import proofs.«156187_j27659589386355_2_alg».proof.Proof.Gen.Pre_finite_inputs
import proofs.«156187_j27659589386355_2_alg».proof.Proof.KernelRun
import proofs.«156187_j27659589386355_2_alg».proof.Proof.KernelValue
import proofs.«156187_j27659589386355_2_alg».proof.Proof.RefRun
import proofs.«156187_j27659589386355_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.GcnRun.run (F := Ideal) m ρ)

/-- The ideal pass rewrote nothing. -/
theorem preserves : Cert.preserves_Kernel_KernelIdeal := trivial

/-- From memories agreeing on the arguments both idealized programs run, and end with equal results: the kernel's at
    `kernelOut` of its launch arrays, the reference's at its last stage function of the same arrays, which is the same
    function (the bridge). -/
theorem algebraic : Cert.algebraic_KernelIdeal_ReferenceIdeal := by
  intro m ρ m' ρ' _ hagree
  refine ⟨fun c => Cert.KernelIdeal.GcnValue.kernelOut m c, ?_, ?_⟩
  · exact (θ_run Cert.KernelIdeal.defs _ _).mono
      (fun r h c => ⟨(h c).1.trans (Cert.KernelIdeal.GcnValue.kernel_value m ρ c), (h c).2⟩)
      (Cert.KernelIdeal.GcnRun.run_result (F := Ideal) m ρ)
  · refine (θ_run Cert.ReferenceIdeal.defs _ _).mono (fun _ h c => ⟨(h c).1.trans ?_, (h c).2⟩)
      (Cert.ReferenceIdeal.GcnRun.run (F := Ideal) m' ρ')
    rw [(hagree c).1, (hagree c).2.1, (hagree c).2.2.1, (hagree c).2.2.2.1, (hagree c).2.2.2.2.1, (hagree c).2.2.2.2.2]
    exact Cert.Gcn.Bridge.bridge _ _ _ _ _ _ Cert.KernelIdeal.Gen.shapeCasts_S50000_S50000x1
      Cert.KernelIdeal.Gen.shapeCasts_S256_S1x256 Cert.KernelIdeal.Gen.shapeCasts_S64_S1x64

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
